-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S40000x4 : Shape := ⟨2, ![40000, 4]⟩
abbrev S128x128 : Shape := ⟨2, ![128, 128]⟩
abbrev S4x128 : Shape := ⟨2, ![4, 128]⟩
abbrev S128 : Shape := ⟨1, ![128]⟩
abbrev S256x128 : Shape := ⟨2, ![256, 128]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S40000x4 : S_.BroadcastsInDim S40000x4 (![] : Fin 0 → Fin S40000x4.rank)
  reducesTo_S40000x4_S_d0_1 : S40000x4.ReducesTo [0, 1] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_arg18 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128 .f32) (main_arg15 : FVec F S128 .f32) (main_arg16 : FVec F S128x128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128 .f32) (main_arg12 : FVec F S128 .f32) (main_arg13 : FVec F S128x128 .f32) (main_arg14 : FVec F S128 .f32) (main_arg15 : FVec F S128 .f32) (main_arg16 : FVec F S128x128 .f32) (main_arg17 : FVec F S128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S256x128 .f32) (main_arg8 : FVec F S128 .f32) (main_arg9 : FVec F S128 .f32) (main_arg10 : FVec F S128x128 .f32) (main_arg11 : FVec F S128 .f32) (main_arg12 : FVec F S128 .f32) (main_arg13 : FVec F S128x128 .f32) (main_arg14 : FVec F S128 .f32) (main_arg15 : FVec F S128 .f32) (main_arg16 : FVec F S128x128 .f32) (main_arg17 : FVec F S128 .f32) (main_arg18 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_v48 main_v49 main_v50

def fn_part1 {F : FTy → Type} [FloatOps F] (main_arg4 : FVec F S128x128 .f32) (main_arg5 : FVec F S4x128 .f32) (main_arg6 : FVec F S128 .f32) (main_arg7 : FVec F S256x128 .f32) (main_arg8 : FVec F S128 .f32) (main_arg9 : FVec F S128 .f32) (main_arg10 : FVec F S128x128 .f32) (main_arg11 : FVec F S128 .f32) (main_arg12 : FVec F S128 .f32) (main_arg13 : FVec F S128x128 .f32) (main_arg14 : FVec F S128 .f32) (main_arg15 : FVec F S128 .f32) (main_arg16 : FVec F S128x128 .f32) (main_arg17 : FVec F S128 .f32) (main_arg18 : FVec F S128 .f32) (main_v13 : IVec S_ 1) (main_v16 : IVec S40000x4 1) : IVec S_ 1 :=
  let main_c_5 : IVec S_ 1 := constantI S_ 1 1#1
  let main_v17 : IVec S_ 1 := (fun x v => Host.reduce IntOp.andi x v reducesTo_S40000x4_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S40000x128 .f32) (main_arg1 : FVec F S40000x128 .f32) (main_arg2 : FVec F S40000x4 .f32) (main_arg3 : FVec F S40000x4 .f32) (main_arg4 : FVec F S128x128 .f32) (main_arg5 : FVec F S4x128 .f32) (main_arg6 : FVec F S128 .f32) (main_arg7 : FVec F S256x128 .f32) (main_arg8 : FVec F S128 .f32) (main_arg9 : FVec F S128 .f32) (main_arg10 : FVec F S128x128 .f32) (main_arg11 : FVec F S128 .f32) (main_arg12 : FVec F S128 .f32) (main_arg13 : FVec F S128x128 .f32) (main_arg14 : FVec F S128 .f32) (main_arg15 : FVec F S128 .f32) (main_arg16 : FVec F S128x128 .f32) (main_arg17 : FVec F S128 .f32) (main_arg18 : FVec F S128 .f32) (main_arg19 : IVec S640000 32) (main_arg20 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S40000x4 .f32 := Host.absf main_arg2
  let main_cst_2 : FVec F S_ .f32 := constant S_ .f32 0x7F800000#32
  let main_v10 : FVec F S40000x4 .f32 := broadcastInDim S40000x4 ![] bcast_S_S40000x4 main_cst_2
  let main_v11 : IVec S40000x4 1 := cmpf .olt main_v9 main_v10
  let main_c_3 : IVec S_ 1 := constantI S_ 1 1#1
  let main_v12 : IVec S_ 1 := (fun x v => Host.reduce IntOp.andi x v reducesTo_S40000x4_S_d0_1 h_S_) main_v11 main_c_3
  let main_v13 : IVec S_ 1 := andi main_v8 main_v12
  let main_v14 : FVec F S40000x4 .f32 := Host.absf main_arg3
  let main_cst_4 : FVec F S_ .f32 := constant S_ .f32 0x7F800000#32
  let main_v15 : FVec F S40000x4 .f32 := broadcastInDim S40000x4 ![] bcast_S_S40000x4 main_cst_4
  let main_v16 : IVec S40000x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S40000x128 : Shape := ⟨2, ![40000, 128]⟩
abbrev S40000x4 : Shape := ⟨2, ![40000, 4]⟩
abbrev S128x128 : Shape := ⟨2, ![128, 128]⟩
abbrev S4x128 : Shape := ⟨2, ![4, 128]⟩
abbrev S128 : Shape := ⟨1, ![128]⟩
abbrev S256x128 : Shape := ⟨2, ![256, 128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x4 : Shape := ⟨2, ![640000, 4]⟩
abbrev S6400x128 : Shape := ⟨2, ![6400, 128]⟩
abbrev S6400x4 : Shape := ⟨2, ![6400, 4]⟩
abbrev S1x128 : Shape := ⟨2, ![1, 128]⟩
abbrev S6400 : Shape := ⟨1, ![6400]⟩
abbrev S6400x1 : Shape := ⟨2, ![6400, 1]⟩
abbrev S4000x128 : Shape := ⟨2, ![4000, 128]⟩
abbrev S4000 : Shape := ⟨1, ![4000]⟩
abbrev S4000x1 : Shape := ⟨2, ![4000, 1]⟩

abbrev nBuf : Space → Nat
  | .hbm => 59
  | .vmem => 28
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S40000x4, .f32⟩
  | .hbm, ⟨3, _⟩ => ⟨S40000x4, .f32⟩
  | .hbm, ⟨4, _⟩ => ⟨S128x128, .f32⟩
  | .hbm, ⟨5, _⟩ => ⟨S4x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S640000, .i32⟩
  | .hbm, ⟨20, _⟩ => ⟨S640000, .i32⟩
  | .hbm, ⟨21, _⟩ => ⟨S40000x128, .bf16⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .bf16⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x4, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x4, .f32⟩
  | .hbm, ⟨49, _⟩ => ⟨S640000x4, .f32⟩
  | .hbm, ⟨50, _⟩ => ⟨S128x128, .f32⟩
  | .hbm, ⟨51, _⟩ => ⟨S128x128, .f32⟩
  | .hbm, ⟨52, _⟩ => ⟨S640000x128, .bf16⟩
  | .hbm, ⟨53, _⟩ => ⟨S640000x128, .f32⟩
  | .hbm, ⟨54, _⟩ => ⟨S_, .f32⟩
  | .hbm, ⟨55, _⟩ => ⟨S40000x128, .f32⟩
  | .hbm, ⟨56, _⟩ => ⟨S640000x1, .i32⟩
  | .hbm, ⟨57, _⟩ => ⟨S40000x128, .f32⟩
  | .hbm, ⟨58, _⟩ => ⟨S40000x128, .f32⟩
  | .local _ .vmem, ⟨0, _⟩ => ⟨S6400x128, .bf16⟩
  | .local _ .vmem, ⟨1, _⟩ => ⟨S6400x128, .bf16⟩
  | .local _ .vmem, ⟨2, _⟩ => ⟨S6400x4, .f32⟩
  | .local _ .vmem, ⟨3, _⟩ => ⟨S6400x4, .f32⟩
  | .local _ .vmem, ⟨4, _⟩ => ⟨S4x128, .f32⟩
  | .local _ .vmem, ⟨5, _⟩ => ⟨S128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S6400x128, .bf16⟩
  | .local _ .vmem, ⟨12, _⟩ => ⟨S6400x128, .bf16⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S128, .f32⟩
  | .local _ .vmem, ⟨23, _⟩ => ⟨S128x128, .f32⟩
  | .local _ .vmem, ⟨24, _⟩ => ⟨S128, .f32⟩
  | .local _ .vmem, ⟨25, _⟩ => ⟨S128, .f32⟩
  | .local _ .vmem, ⟨26, _⟩ => ⟨S4000x128, .f32⟩
  | .local _ .vmem, ⟨27, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  inb_S6400x4_S6400x4_0_0 : ∀ a, (![0, 0] : Fin 2 → Nat) a + S6400x4.size a ≤ S6400x4.size a
  h_S6400x4 : 0 < S6400x4.numel
  shapeCasts_S6400x4_S6400x4 : S6400x4.ShapeCasts S6400x4
  inb_S4x128_S4x128_0_0 : ∀ a, (![0, 0] : Fin 2 → Nat) a + S4x128.size a ≤ S4x128.size a
  h_S4x128 : 0 < S4x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S6400x128_S6400 : S6400x128.Reduces [1] S6400
  shapeCasts_S6400_S6400x1 : S6400.ShapeCasts S6400x1
  broadcasts_S6400x1_S6400x128 : S6400x1.Broadcasts S6400x128
  packedbf16_S6400x128_S6400x128_0_0 : (Rect.unit (s := S6400x128) ![0, 0] S6400x128.size inb_S6400x128_S6400x128_0_0).PackedRows (EltTy.packing .bf16)
  bcast_S_S40000x128 : S_.BroadcastsInDim S40000x128 (![] : Fin 0 → Fin S40000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  broadcasts_S1x128_S4000x128 : S1x128.Broadcasts S4000x128
  gather_S40000x128_S640000x1_S640000x128_1_0_n_n_0_1_1128_wf : GatherDims.WF S40000x128 S640000x1 S640000x128 [1] [0] [] [0] [] 1 ![1, 128]
  gather_S40000x4_S640000x1_S640000x4_1_0_n_n_0_1_14_wf : GatherDims.WF S40000x4 S640000x1 S640000x4 [1] [0] [] [0] [] 1 ![1, 4]
  dot_S6400x4_S4x128_S6400x128_1_0_0_1_n_n_wf : DotDims.WF S6400x4 S4x128 S6400x128 [1] [0] [0] [1] [] []
  dot_S6400x128_S128x128_S6400x128_1_0_0_1_n_n_wf : DotDims.WF S6400x128 S128x128 S6400x128 [1] [0] [0] [1] [] []
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .bf16 = 32 ∨ (Rect.block (s := S640000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x4.size a ≤ S640000x4.size a
  hwx0_1 : ∀ i : grid0.Coords, EltTy.bits .f32 = 32 ∨ (Rect.block (s := S640000x4) S6400x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x128.size a ≤ S640000x128.size a
  hwx0_9 : ∀ i : grid0.Coords, EltTy.bits .bf16 = 32 ∨ (Rect.block (s := S640000x128) S6400x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S40000x128.size a
  hwx1_11 : ∀ i : grid1.Coords, EltTy.bits .f32 = 32 ∨ (Rect.block (s := S40000x128) S4000x128.size (cc1_transform_11 i) (hinb1_11 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def gather_S40000x4_S640000x1_S640000x4_1_0_n_n_0_1_14 : GatherDims S40000x4 S640000x1 S640000x4 where
  offsetDims := [1]
  collapsedSliceDims := [0]
  operandBatchingDims := []
  startIndicesBatchingDims := []
  startIndexMap := [0]
  indexVectorDim := 1
  sliceSizes := ![1, 4]
  wf := gather_S40000x4_S640000x1_S640000x4_1_0_n_n_0_1_14_wf
def dot_S6400x4_S4x128_S6400x128_1_0_0_1_n_n : DotDims S6400x4 S4x128 S6400x128 where
  lhsContracting := [1]
  rhsContracting := [0]
  lhsNonContracting := [0]
  rhsNonContracting := [1]
  lhsBatch := []
  rhsBatch := []
  wf := dot_S6400x4_S4x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v7) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S6400x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S6400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg18) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v30) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S40000x128 : Shape := ⟨2, ![40000, 128]⟩
abbrev S40000x4 : Shape := ⟨2, ![40000, 4]⟩
abbrev S128x128 : Shape := ⟨2, ![128, 128]⟩
abbrev S4x128 : Shape := ⟨2, ![4, 128]⟩
abbrev S128 : Shape := ⟨1, ![128]⟩
abbrev S256x128 : Shape := ⟨2, ![256, 128]⟩
abbrev S640000 : Shape := ⟨1, ![640000]⟩
abbrev S_ : Shape := ⟨0, ![]⟩
abbrev S640000x1 : Shape := ⟨2, ![640000, 1]⟩
abbrev S640000x4 : Shape := ⟨2, ![640000, 4]⟩
abbrev S640000x128 : Shape := ⟨2, ![640000, 128]⟩
abbrev S1x128 : Shape := ⟨2, ![1, 128]⟩
abbrev S640000x256 : Shape := ⟨2, ![640000, 256]⟩
abbrev S40000 : Shape := ⟨1, ![40000]⟩
abbrev S40000x1 : Shape := ⟨2, ![40000, 1]⟩

abbrev nBuf : Space → Nat
  | .hbm => 196
  | .vmem => 0
  | .smem => 0
  | _ => 0

abbrev hbmTy0_0 (i : Nat) : BufTy := match i % 128 with
  | 0 => ⟨S40000x128, .f32⟩
  | 1 => ⟨S40000x128, .f32⟩
  | 2 => ⟨S40000x4, .f32⟩
  | 3 => ⟨S40000x4, .f32⟩
  | 4 => ⟨S128x128, .f32⟩
  | 5 => ⟨S4x128, .f32⟩
  | 6 => ⟨S128, .f32⟩
  | 7 => ⟨S256x128, .f32⟩
  | 8 => ⟨S128, .f32⟩
  | 9 => ⟨S128, .f32⟩
  | 10 => ⟨S128x128, .f32⟩
  | 11 => ⟨S128, .f32⟩
  | 12 => ⟨S128, .f32⟩
  | 13 => ⟨S128x128, .f32⟩
  | 14 => ⟨S128, .f32⟩
  | 15 => ⟨S128, .f32⟩
  | 16 => ⟨S128x128, .f32⟩
  | 17 => ⟨S128, .f32⟩
  | 18 => ⟨S128, .f32⟩
  | 19 => ⟨S640000, .i32⟩
  | 20 => ⟨S640000, .i32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x4, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S640000x4, .f32⟩
  | 39 => ⟨S640000x4, .f32⟩
  | 40 => ⟨S640000x128, .f32⟩
  | 41 => ⟨S1x128, .f32⟩
  | 42 => ⟨S640000x128, .f32⟩
  | 43 => ⟨S640000x128, .f32⟩
  | 44 => ⟨S_, .f32⟩
  | 45 => ⟨S640000x128, .f32⟩
  | 46 => ⟨S640000x128, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x128, .f32⟩
  | 56 => ⟨S640000x256, .f32⟩
  | 57 => ⟨S640000x128, .f32⟩
  | 58 => ⟨S_, .f32⟩
  | 59 => ⟨S640000, .f32⟩
  | 60 => ⟨S640000x1, .f32⟩
  | 61 => ⟨S_, .f32⟩
  | 62 => ⟨S640000x1, .f32⟩
  | 63 => ⟨S640000x1, .f32⟩
  | 64 => ⟨S640000x128, .f32⟩
  | 65 => ⟨S640000x128, .f32⟩
  | 66 => ⟨S640000x128, .f32⟩
  | 67 => ⟨S_, .f32⟩
  | 68 => ⟨S640000, .f32⟩
  | 69 => ⟨S640000x1, .f32⟩
  | 70 => ⟨S_, .f32⟩
  | 71 => ⟨S640000x1, .f32⟩
  | 72 => ⟨S640000x1, .f32⟩
  | 73 => ⟨S640000x128, .f32⟩
  | 74 => ⟨S640000x128, .f32⟩
  | 75 => ⟨S_, .f32⟩
  | 76 => ⟨S640000x1, .f32⟩
  | 77 => ⟨S640000x1, .f32⟩
  | 78 => ⟨S640000x1, .f32⟩
  | 79 => ⟨S640000x128, .f32⟩
  | 80 => ⟨S640000x128, .f32⟩
  | 81 => ⟨S1x128, .f32⟩
  | 82 => ⟨S640000x128, .f32⟩
  | 83 => ⟨S640000x128, .f32⟩
  | 84 => ⟨S1x128, .f32⟩
  | 85 => ⟨S640000x128, .f32⟩
  | 86 => ⟨S640000x128, .f32⟩
  | 87 => ⟨S_, .f32⟩
  | 88 => ⟨S640000x128, .f32⟩
  | 89 => ⟨S640000x128, .f32⟩
  | 90 => ⟨S640000x128, .f32⟩
  | 91 => ⟨S40000x128, .f32⟩
  | 92 => ⟨S_, .f32⟩
  | 93 => ⟨S40000x128, .f32⟩
  | 94 => ⟨S640000x1, .i32⟩
  | 95 => ⟨S40000x128, .f32⟩
  | 96 => ⟨S40000x128, .f32⟩
  | 97 => ⟨S_, .f32⟩
  | 98 => ⟨S40000, .f32⟩
  | 99 => ⟨S40000x1, .f32⟩
  | 100 => ⟨S_, .f32⟩
  | 101 => ⟨S40000x1, .f32⟩
  | 102 => ⟨S40000x1, .f32⟩
  | 103 => ⟨S40000x128, .f32⟩
  | 104 => ⟨S40000x128, .f32⟩
  | 105 => ⟨S40000x128, .f32⟩
  | 106 => ⟨S_, .f32⟩
  | 107 => ⟨S40000, .f32⟩
  | 108 => ⟨S40000x1, .f32⟩
  | 109 => ⟨S_, .f32⟩
  | 110 => ⟨S40000x1, .f32⟩
  | 111 => ⟨S40000x1, .f32⟩
  | 112 => ⟨S40000x128, .f32⟩
  | 113 => ⟨S40000x128, .f32⟩
  | 114 => ⟨S_, .f32⟩
  | 115 => ⟨S40000x1, .f32⟩
  | 116 => ⟨S40000x1, .f32⟩
  | 117 => ⟨S40000x1, .f32⟩
  | 118 => ⟨S40000x128, .f32⟩
  | 119 => ⟨S40000x128, .f32⟩
  | 120 => ⟨S1x128, .f32⟩
  | 121 => ⟨S40000x128, .f32⟩
  | 122 => ⟨S40000x128, .f32⟩
  | 123 => ⟨S1x128, .f32⟩
  | 124 => ⟨S40000x128, .f32⟩
  | 125 => ⟨S40000x128, .f32⟩
  | 126 => ⟨S_, .f32⟩
  | 127 => ⟨S40000x128, .f32⟩
  | _ => ⟨S40000x128, .f32⟩

abbrev hbmTy0_1 (i : Nat) : BufTy := match i % 128 with
  | 0 => ⟨S40000x128, .f32⟩
  | 1 => ⟨S40000x128, .f32⟩
  | 2 => ⟨S_, .f32⟩
  | 3 => ⟨S40000, .f32⟩
  | 4 => ⟨S40000x1, .f32⟩
  | 5 => ⟨S_, .f32⟩
  | 6 => ⟨S40000x1, .f32⟩
  | 7 => ⟨S40000x1, .f32⟩
  | 8 => ⟨S40000x128, .f32⟩
  | 9 => ⟨S40000x128, .f32⟩
  | 10 => ⟨S40000x128, .f32⟩
  | 11 => ⟨S_, .f32⟩
  | 12 => ⟨S40000, .f32⟩
  | 13 => ⟨S40000x1, .f32⟩
  | 14 => ⟨S_, .f32⟩
  | 15 => ⟨S40000x1, .f32⟩
  | 16 => ⟨S40000x1, .f32⟩
  | 17 => ⟨S40000x128, .f32⟩
  | 18 => ⟨S40000x128, .f32⟩
  | 19 => ⟨S_, .f32⟩
  | 20 => ⟨S40000x1, .f32⟩
  | 21 => ⟨S40000x1, .f32⟩
  | 22 => ⟨S40000x1, .f32⟩
  | 23 => ⟨S40000x128, .f32⟩
  | 24 => ⟨S40000x128, .f32⟩
  | 25 => ⟨S1x128, .f32⟩
  | 26 => ⟨S40000x128, .f32⟩
  | 27 => ⟨S40000x128, .f32⟩
  | 28 => ⟨S1x128, .f32⟩
  | 29 => ⟨S40000x128, .f32⟩
  | 30 => ⟨S40000x128, .f32⟩
  | 31 => ⟨S_, .f32⟩
  | 32 => ⟨S40000x128, .f32⟩
  | 33 => ⟨S40000x128, .f32⟩
  | 34 => ⟨S40000x128, .f32⟩
  | 35 => ⟨S_, .f32⟩
  | 36 => ⟨S40000, .f32⟩
  | 37 => ⟨S40000x1, .f32⟩
  | 38 => ⟨S_, .f32⟩
  | 39 => ⟨S40000x1, .f32⟩
  | 40 => ⟨S40000x1, .f32⟩
  | 41 => ⟨S40000x128, .f32⟩
  | 42 => ⟨S40000x128, .f32⟩
  | 43 => ⟨S40000x128, .f32⟩
  | 44 => ⟨S_, .f32⟩
  | 45 => ⟨S40000, .f32⟩
  | 46 => ⟨S40000x1, .f32⟩
  | 47 => ⟨S_, .f32⟩
  | 48 => ⟨S40000x1, .f32⟩
  | 49 => ⟨S40000x1, .f32⟩
  | 50 => ⟨S40000x128, .f32⟩
  | 51 => ⟨S40000x128, .f32⟩
  | 52 => ⟨S_, .f32⟩
  | 53 => ⟨S40000x1, .f32⟩
  | 54 => ⟨S40000x1, .f32⟩
  | 55 => ⟨S40000x1, .f32⟩
  | 56 => ⟨S40000x128, .f32⟩
  | 57 => ⟨S40000x128, .f32⟩
  | 58 => ⟨S1x128, .f32⟩
  | 59 => ⟨S40000x128, .f32⟩
  | 60 => ⟨S40000x128, .f32⟩
  | 61 => ⟨S1x128, .f32⟩
  | 62 => ⟨S40000x128, .f32⟩
  | 63 => ⟨S40000x128, .f32⟩
  | 64 => ⟨S40000x128, .f32⟩
  | 65 => ⟨S_, .f32⟩
  | 66 => ⟨S40000x128, .f32⟩
  | 67 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call0_cst : Ref sig .tc := ⟨.hbm, 44, rfl⟩
abbrev main_call0_v0 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call1_cst : Ref sig .tc := ⟨.hbm, 87, rfl⟩
abbrev main_call1_v0 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_10 : Ref sig .tc := ⟨.hbm, 97, rfl⟩
abbrev main_v60 : Ref sig .tc := ⟨.hbm, 98, rfl⟩
abbrev main_v61 : Ref sig .tc := ⟨.hbm, 99, rfl⟩
abbrev main_cst_11 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_12 : Ref sig .tc := ⟨.hbm, 106, rfl⟩
abbrev main_v67 : Ref sig .tc := ⟨.hbm, 107, rfl⟩
abbrev main_v68 : Ref sig .tc := ⟨.hbm, 108, rfl⟩
abbrev main_cst_13 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call2_cst : Ref sig .tc := ⟨.hbm, 126, rfl⟩
abbrev main_call2_v0 : Ref sig .tc := ⟨.hbm, 127, rfl⟩
abbrev main_v84 : Ref sig .tc := ⟨.hbm, 128, rfl⟩
abbrev main_v85 : Ref sig .tc := ⟨.hbm, 129, rfl⟩
abbrev main_cst_15 : Ref sig .tc := ⟨.hbm, 130, rfl⟩
abbrev main_v86 : Ref sig .tc := ⟨.hbm, 131, rfl⟩
abbrev main_v87 : Ref sig .tc := ⟨.hbm, 132, rfl⟩
abbrev main_cst_16 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_17 : Ref sig .tc := ⟨.hbm, 139, rfl⟩
abbrev main_v93 : Ref sig .tc := ⟨.hbm, 140, rfl⟩
abbrev main_v94 : Ref sig .tc := ⟨.hbm, 141, rfl⟩
abbrev main_cst_18 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_19 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_call3_cst : Ref sig .tc := ⟨.hbm, 159, rfl⟩
abbrev main_call3_v0 : Ref sig .tc := ⟨.hbm, 160, rfl⟩
abbrev main_v110 : Ref sig .tc := ⟨.hbm, 161, rfl⟩
abbrev main_v111 : Ref sig .tc := ⟨.hbm, 162, rfl⟩
abbrev main_cst_20 : Ref sig .tc := ⟨.hbm, 163, rfl⟩
abbrev main_v112 : Ref sig .tc := ⟨.hbm, 164, rfl⟩
abbrev main_v113 : Ref sig .tc := ⟨.hbm, 165, rfl⟩
abbrev main_cst_21 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_22 : Ref sig .tc := ⟨.hbm, 172, rfl⟩
abbrev main_v119 : Ref sig .tc := ⟨.hbm, 173, rfl⟩
abbrev main_v120 : Ref sig .tc := ⟨.hbm, 174, rfl⟩
abbrev main_cst_23 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_24 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_call4_cst : Ref sig .tc := ⟨.hbm, 193, rfl⟩
abbrev main_call4_v0 : Ref sig .tc := ⟨.hbm, 194, rfl⟩
abbrev main_v137 : Ref sig .tc := ⟨.hbm, 195, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  concatenates_S640000x128_S640000x128_S640000x256_d1 : Shape.Concatenates [S640000x128, S640000x128] S640000x256 1
  reducesTo_S640000x128_S640000_d1 : S640000x128.ReducesTo [1] S640000
  h_S_ : 0 < S_.numel
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  reducesTo_S40000x128_S40000_d1 : S40000x128.ReducesTo [1] S40000
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  bcast_S1x128_S40000x128_0_1 : S1x128.BroadcastsInDim S40000x128 (![0, 1] : Fin 2 → Fin S40000x128.rank)
  gather_S40000x4_S640000x1_S640000x4_1_0_n_n_0_1_14_wf : GatherDims.WF S40000x4 S640000x1 S640000x4 [1] [0] [] [0] [] 1 ![1, 4]
  dot_S640000x4_S4x128_S640000x128_1_0_0_1_n_n_wf : DotDims.WF S640000x4 S4x128 S640000x128 [1] [0] [0] [1] [] []
  gather_S40000x128_S640000x1_S640000x128_1_0_n_n_0_1_1128_wf : GatherDims.WF S40000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x128_S640000x128_1_0_0_1_n_n_wf : DotDims.WF S640000x128 S128x128 S640000x128 [1] [0] [0] [1] [] []
  dot_S40000x128_S128x128_S40000x128_1_0_0_1_n_n_wf : DotDims.WF S40000x128 S128x128 S40000x128 [1] [0] [0] [1] [] []
  scatter_S40000x128_S640000x1_S640000x128_1_0_0_1_wf : ScatterDims.WF S40000x128 S640000x1 S640000x128 [1] [0] [0] 1

variable [Facts₀]

def gather_S40000x4_S640000x1_S640000x4_1_0_n_n_0_1_14 : GatherDims S40000x4 S640000x1 S640000x4 where
  offsetDims := [1]
  collapsedSliceDims := [0]
  operandBatchingDims := []
  startIndicesBatchingDims := []
  startIndexMap := [0]
  indexVectorDim := 1
  sliceSizes := ![1, 4]
  wf := gather_S40000x4_S640000x1_S640000x4_1_0_n_n_0_1_14_wf
def dot_S640000x4_S4x128_S640000x128_1_0_0_1_n_n : DotDims S640000x4 S4x128 S640000x128 where
  lhsContracting := [1]
  rhsContracting := [0]
  lhsNonContracting := [0]
  rhsNonContracting := [1]
  lhsBatch := []
  rhsBatch := []
  wf := dot_S640000x4_S4x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.KernelRun.lean ====
/-
  The idealised kernel program's run, with its result named.

  @main is two pipelined regions among three stretches of host operations.  Every weakly fair execution from a memory
  with zero counters ends, without a fault, in a state whose result array holds what the second region's write-backs
  leave of it — the last fold `W4` of the buffer contents through @main, read at the result's buffer — and whose
  argument arrays are as launched: the library's theorem for a run of regions over the program's segments, the final thread state read against
  the final memory, the result and each argument at its buffer.
-/
import proofs.«157215_j79577154060436_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last fold's
    contents of its buffer and every argument array as launched. -/
theorem run_result : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c)⟩)

end Cert.KernelIdeal.Run

end
-- ==== Proof.Spec.lean ====
/-
  The mathematics both programs compute, written once on the extended reals.

  A row of 128 numbers is normalised by `gnRow`: subtract the row's mean, multiply by the reciprocal square root of the
  row's variance plus a small constant, scale by `g` and shift by `b` (a group norm with one group).  An edge's
  message `edgeRow` is a two-layer perceptron of the gathered source features `cf` and the relative pose `d`: the pose
  goes through a dense layer and a ReLU, the pair (features, pose features) through a dense layer whose 256×128 weight
  is read as an upper and a lower 128×128 half, then the norm, a ReLU and a last product.  A node's update `nodeRow` adds
  the aggregated messages to a linear image of the node's features and sends the sum through three normalised layers,
  the last one closed by a residual connection and a ReLU.  `edgeArr` and `nodeArr` apply the two row functions to every
  row of a matrix.  Nothing here mentions a program.
-/
import Idealize.ShloMosaic.Lib.ValueIdx
import Idealize.ShloMosaic.PureOps.Ideal

noncomputable section

open scoped BigOperators

namespace Cert.Spec

open Idealize.ShloMosaic Idealize.ShloMosaic.ValueIdx

/-- The matrix shape `[a, b]` and the vector shape `[b]`. -/
abbrev Mat (a b : ℕ) : Shape := ⟨2, ![a, b]⟩
abbrev Vc (b : ℕ) : Shape := ⟨1, ![b]⟩

/-- The number of channels, 128, and the small constant added to a variance, as the programs spell them. -/
def c128 : EReal := Ideal.ofBits .f32 0x43000000#32
def epsv : EReal := Ideal.ofBits .f32 0x3727C5AC#32

/-- The mean of a row: its sum divided by 128. -/
def mean (x : Fin 128 → EReal) : EReal := Ideal.div (∑ f : Fin 128, x f) c128

/-- A row normalised to zero mean and unit variance, then scaled by `g` and shifted by `b`. -/
def gnRow (x g b : Fin 128 → EReal) : Fin 128 → EReal := fun e =>
  (x e - mean x) * Ideal.rsqrt (mean (fun f => (x f - mean x) * (x f - mean x)) + epsv) * g e + b e

/-- The entrywise maximum with 0. -/
def relu {n : ℕ} (x : Fin n → EReal) : Fin n → EReal := fun e => max (x e) 0

/-- The row vector `x · W`. -/
def matvec {K N : ℕ} (W : Fin K → Fin N → EReal) (x : Fin K → EReal) : Fin N → EReal := fun e => ∑ k : Fin K, x k * W k e

/-- One edge's message from its gathered source features `cf` and relative pose `d`. -/
def edgeRow (cf : Fin 128 → EReal) (d : Fin 4 → EReal) (Wrp : Fin 4 → Fin 128 → EReal) (brp : Fin 128 → EReal)
    (Wa Wb : Fin 128 → Fin 128 → EReal) (g b : Fin 128 → EReal) (Wc2 : Fin 128 → Fin 128 → EReal) : Fin 128 → EReal :=
  matvec Wc2 (relu (gnRow (fun e => matvec Wa cf e + matvec Wb (relu fun e' => matvec Wrp d e' + brp e') e) g b))

/-- One node's new features from its old features `t` and the sum `agg` of the messages sent to it. -/
def nodeRow (t agg : Fin 128 → EReal) (Win : Fin 128 → Fin 128 → EReal) (gn bn : Fin 128 → EReal)
    (Wm1 : Fin 128 → Fin 128 → EReal) (gm1 bm1 : Fin 128 → EReal) (Wm2 : Fin 128 → Fin 128 → EReal)
    (gm2 bm2 : Fin 128 → EReal) : Fin 128 → EReal :=
  relu fun e => gnRow (matvec Wm2 (relu (gnRow (matvec Wm1 (relu (gnRow (fun e' => matvec Win t e' + agg e') gn bn))) gm1 bm1))) gm2 bm2 e + t e

/-- Row `r` of a matrix, a matrix as a function of its two coordinates, a vector as a function of its one. -/
def row {a b : ℕ} (X : (Mat a b).Idx → EReal) (r : Fin a) : Fin b → EReal := fun k => X (ix2 r k)
def mat {a b : ℕ} (X : (Mat a b).Idx → EReal) : Fin a → Fin b → EReal := fun k e => X (ix2 k e)
def vec {b : ℕ} (v : (Vc b).Idx → EReal) : Fin b → EReal := fun e => v (ix1 e)

/-- The upper and the lower 128 rows of a 256×128 matrix. -/
def upper (W : (Mat 256 128).Idx → EReal) : Fin 128 → Fin 128 → EReal := fun k e => W (ix2 ⟨k.val, by omega⟩ e)
def lower (W : (Mat 256 128).Idx → EReal) : Fin 128 → Fin 128 → EReal := fun k e => W (ix2 ⟨128 + k.val, by omega⟩ e)

/-- Every edge's message: row `j 0` of the result is `edgeRow` of row `j 0` of the gathered features and poses. -/
def edgeArr {n : ℕ} (CF : (Mat n 128).Idx → EReal) (D : (Mat n 4).Idx → EReal) (x5 : (Mat 4 128).Idx → EReal)
    (x6 : (Vc 128).Idx → EReal) (x7 : (Mat 256 128).Idx → EReal) (x8 x9 : (Vc 128).Idx → EReal)
    (x10 : (Mat 128 128).Idx → EReal) : (Mat n 128).Idx → EReal :=
  fun j => edgeRow (row CF (j 0)) (row D (j 0)) (mat x5) (vec x6) (upper x7) (lower x7) (vec x8) (vec x9) (mat x10) (j 1)

/-- Every node's update. -/
def nodeArr {n : ℕ} (T A : (Mat n 128).Idx → EReal) (x4 : (Mat 128 128).Idx → EReal) (x11 x12 : (Vc 128).Idx → EReal)
    (x13 : (Mat 128 128).Idx → EReal) (x14 x15 : (Vc 128).Idx → EReal) (x16 : (Mat 128 128).Idx → EReal)
    (x17 x18 : (Vc 128).Idx → EReal) : (Mat n 128).Idx → EReal :=
  fun i => nodeRow (row T (i 0)) (row A (i 0)) (mat x4) (vec x11) (vec x12) (mat x13) (vec x14) (vec x15) (mat x16)
    (vec x17) (vec x18) (i 1)

end Cert.Spec

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.KVec.lean ====
/-
  The vector operations of a normalised dense layer, read at one entry, for any number of rows.

  A kernel body spells the mean of every row of an `[a, 128]` matrix as a lane reduction `[a, 128] → [a]`, a cast of the
  sums to a column `[a, 1]` and a division of the column by 128; the normalisation as the difference to the mean spread
  back over the 128 columns, times the reciprocal square root of the mean of its squares plus a small constant, times a
  scale row and plus a shift row (each a `[128]` vector cast to `[1, 128]` and spread over the `a` rows).  Read at
  `(r, e)` the result depends on row `r` only and is `gnRow` of that row.  A product into the zero accumulator reads as
  the row times the weight matrix; the maximum with the zero splat as the ReLU.
-/
import proofs.«157215_j79577154060436_2_alg».proof.Proof.Spec
import proofs.«157215_j79577154060436_2_alg».proof.Proof.LibKeepdims
import proofs.«157215_j79577154060436_2_alg».proof.Proof.LibPlainMatmul
import Idealize.ShloMosaic.Lib.ValueLayout
import Idealize.ShloMosaic.Lib.Pipeline.Value

noncomputable section

open scoped BigOperators

namespace Cert.KVec

open Idealize.ShloMosaic Idealize.ShloMosaic.ValueIdx Cert.Spec Cert.LibKeepdims

variable {a : ℕ}

theorem rsqrt_apply {s : Shape} {φ : FTy} (v : FVec Ideal s φ) (i : s.Idx) : rsqrt v i = Ideal.rsqrt (v i) := rfl

/-- The column of row means: the lane sums as a column, divided by 128. -/
def meanCol (x : FVec Ideal (Mat a 128) .f32) (hr : (Mat a 128).Reduces [1] (Vc a)) (hc : (Vc a).ShapeCasts (Mat a 1)) :
    FVec Ideal (Mat a 1) .f32 :=
  divf (shapeCast (Mat a 1) (multiReduction .add [1] (Vc a) x 0x00000000#32 hr (.inl rfl) rfl) hc)
    (broadcast (Mat a 1) (Scalar.ofBits (F := Ideal) .f32 0x43000000#32))

theorem meanCol_apply (x : FVec Ideal (Mat a 128) .f32) (hr : (Mat a 128).Reduces [1] (Vc a)) (hc : (Vc a).ShapeCasts (Mat a 1))
    (r : Fin a) (u : Fin 1) : meanCol x hr hc (ix2 r u) = mean (row x r) := by
  show Ideal.div (shapeCast (Mat a 1) (multiReduction .add [1] (Vc a) x 0x00000000#32 hr (.inl rfl) rfl) hc (ix2 r u))
    (Ideal.ofBits .f32 0x43000000#32) = _
  exact congrArg (Ideal.div · (Ideal.ofBits .f32 0x43000000#32))
    ((shapeCast_a_a1_apply _ hc r u).trans (multiReduction_add_lastAxis_apply x _ hr _ _ r))

/-- The normalised, scaled and shifted matrix, as the body's vector operations. -/
def gnVec (x : FVec Ideal (Mat a 128) .f32) (g b : FVec Ideal (Vc 128) .f32) (hr : (Mat a 128).Reduces [1] (Vc a))
    (hc : (Vc a).ShapeCasts (Mat a 1)) (hb : (Mat a 1).Broadcasts (Mat a 128)) (hg : (Vc 128).ShapeCasts (Mat 1 128))
    (hgb : (Mat 1 128).Broadcasts (Mat a 128)) : FVec Ideal (Mat a 128) .f32 :=
  addf (mulf (mulf (subf x (broadcastTo (Mat a 128) (meanCol x hr hc) hb))
      (broadcastTo (Mat a 128) (rsqrt (addf (meanCol (mulf (subf x (broadcastTo (Mat a 128) (meanCol x hr hc) hb))
          (subf x (broadcastTo (Mat a 128) (meanCol x hr hc) hb))) hr hc)
        (broadcast (Mat a 1) (Scalar.ofBits (F := Ideal) .f32 0x3727C5AC#32)))) hb))
      (broadcastTo (Mat a 128) (shapeCast (Mat 1 128) g hg) hgb))
    (broadcastTo (Mat a 128) (shapeCast (Mat 1 128) b hg) hgb)

/-- A `[128]` vector cast to a row and spread over `a` rows reads, at `(r, e)`, the vector at `e`. -/
theorem rowvec_apply {φ : FTy} (g : FVec Ideal (Vc 128) φ) (hg : (Vc 128).ShapeCasts (Mat 1 128))
    (hgb : (Mat 1 128).Broadcasts (Mat a 128)) (r : Fin a) (e : Fin 128) :
    broadcastTo (Mat a 128) (shapeCast (Mat 1 128) g hg) hgb (ix2 r e) = vec g e :=
  (broadcastTo_1b_ab_apply _ hgb r e).trans (shapeCast_a_1a_apply g hg 0 e)

theorem gnVec_apply (x : FVec Ideal (Mat a 128) .f32) (g b : FVec Ideal (Vc 128) .f32) (hr : (Mat a 128).Reduces [1] (Vc a))
    (hc : (Vc a).ShapeCasts (Mat a 1)) (hb : (Mat a 1).Broadcasts (Mat a 128)) (hg : (Vc 128).ShapeCasts (Mat 1 128))
    (hgb : (Mat 1 128).Broadcasts (Mat a 128)) (r : Fin a) (e : Fin 128) :
    gnVec x g b hr hc hb hg hgb (ix2 r e) = gnRow (row x r) (vec g) (vec b) e := by
  have h2 : row (mulf (subf x (broadcastTo (Mat a 128) (meanCol x hr hc) hb))
        (subf x (broadcastTo (Mat a 128) (meanCol x hr hc) hb))) r
      = fun f => (row x r f - mean (row x r)) * (row x r f - mean (row x r)) :=
    funext fun f => by
      show (x (ix2 r f) - broadcastTo (Mat a 128) (meanCol x hr hc) hb (ix2 r f))
        * (x (ix2 r f) - broadcastTo (Mat a 128) (meanCol x hr hc) hb (ix2 r f)) = _
      rw [broadcastTo_a1_ac_apply, meanCol_apply]
      rfl
  unfold gnVec gnRow
  simp only [addf_apply, mulf_apply, subf_apply, rsqrt_apply, broadcast_apply, broadcastTo_a1_ac_apply, rowvec_apply,
    meanCol_apply, h2]
  rfl

/-- A plain product into the zero accumulator: row `r` of the product is row `r` of the left operand times the right. -/
theorem dense_apply {M K N : ℕ} {φ₁ φ₂ : FTy} (d : DotDims (Mat M K) (Mat K N) (Mat M N)) (hd : d = DotDims.plain M K N)
    (X : FVec Ideal (Mat M K) φ₁) (W : FVec Ideal (Mat K N) φ₂) (r : Fin M) (e : Fin N) :
    matmul d none X W (constant (F := Ideal) (Mat M N) .f32 0x00000000#32) (ix2 r e) = matvec (mat W) (row X r) e :=
  matmul_plain_zero_apply d hd none X W r e

/-- The maximum with the splat of the zero word is the maximum with 0. -/
theorem max_zero_apply {s : Shape} (v : FVec Ideal s .f32) (i : s.Idx) :
    maximumf v (broadcast s (Scalar.ofBits (F := Ideal) .f32 0x00000000#32)) i = max (v i) 0 := by
  show max (v i) (Ideal.ofBits .f32 0x00000000#32) = max (v i) 0
  rw [Ideal.ofBits_zero_f32]

/-- A narrowing of the float format is the identity on the extended reals. -/
theorem truncf_eq {s : Shape} {φ ψ : FTy} (v : FVec Ideal s φ) (h : ψ.bits < φ.bits) : (truncf ψ v h : FVec Ideal s ψ) = v := rfl

/-- Every edge's message, the two halves of the 256×128 weight given as two 128×128 matrices. -/
def edgeArrK {n : ℕ} (CF : (Mat n 128).Idx → EReal) (D : (Mat n 4).Idx → EReal) (x5 : (Mat 4 128).Idx → EReal)
    (x6 : (Vc 128).Idx → EReal) (Wa Wb : (Mat 128 128).Idx → EReal) (x8 x9 : (Vc 128).Idx → EReal)
    (x10 : (Mat 128 128).Idx → EReal) : (Mat n 128).Idx → EReal :=
  fun j => edgeRow (row CF (j 0)) (row D (j 0)) (mat x5) (vec x6) (mat Wa) (mat Wb) (vec x8) (vec x9) (mat x10) (j 1)

end Cert.KVec

end
-- ==== Proof.KRows.lean ====
/-
  The same vector operations read a whole row at a time: row `r` of a product into the zero accumulator is row `r` of
  the left operand times the right operand, row `r` of a sum is the sum of the rows, row `r` of the maximum with the
  zero splat is the ReLU of the row, every row of a spread `[128]` vector is the vector, and row `r` of the
  normalised matrix is `gnRow` of row `r`.
-/
import proofs.«157215_j79577154060436_2_alg».proof.Proof.KVec

noncomputable section

open scoped BigOperators

namespace Cert.KVec

open Idealize.ShloMosaic Idealize.ShloMosaic.ValueIdx Cert.Spec Cert.LibKeepdims

variable {a : ℕ}

theorem row_dense {M K N : ℕ} {φ₁ φ₂ : FTy} (d : DotDims (Mat M K) (Mat K N) (Mat M N)) (hd : d = DotDims.plain M K N)
    (X : FVec Ideal (Mat M K) φ₁) (W : FVec Ideal (Mat K N) φ₂) (r : Fin M) :
    row (matmul d none X W (constant (F := Ideal) (Mat M N) .f32 0x00000000#32)) r = matvec (mat W) (row X r) :=
  funext fun e => dense_apply d hd X W r e

theorem row_max_zero {b : ℕ} (v : FVec Ideal (Mat a b) .f32) (r : Fin a) :
    row (maximumf v (broadcast (Mat a b) (Scalar.ofBits (F := Ideal) .f32 0x00000000#32))) r = relu (row v r) :=
  funext fun e => max_zero_apply v (ix2 r e)

theorem row_addf {b : ℕ} {φ : FTy} (u v : FVec Ideal (Mat a b) φ) (r : Fin a) :
    row (addf u v) r = fun e => row u r e + row v r e := rfl

theorem row_rowvec {φ : FTy} (g : FVec Ideal (Vc 128) φ) (hg : (Vc 128).ShapeCasts (Mat 1 128))
    (hgb : (Mat 1 128).Broadcasts (Mat a 128)) (r : Fin a) :
    row (broadcastTo (Mat a 128) (shapeCast (Mat 1 128) g hg) hgb) r = vec g :=
  funext fun e => rowvec_apply g hg hgb r e

theorem row_gnVec (x : FVec Ideal (Mat a 128) .f32) (g b : FVec Ideal (Vc 128) .f32) (hr : (Mat a 128).Reduces [1] (Vc a))
    (hc : (Vc a).ShapeCasts (Mat a 1)) (hb : (Mat a 1).Broadcasts (Mat a 128)) (hg : (Vc 128).ShapeCasts (Mat 1 128))
    (hgb : (Mat 1 128).Broadcasts (Mat a 128)) (r : Fin a) :
    row (gnVec x g b hr hc hb hg hgb) r = gnRow (row x r) (vec g) (vec b) :=
  funext fun e => gnVec_apply x g b hr hc hb hg hgb r e

end Cert.KVec

end
-- ==== Proof.EdgeBody.lean ====
/-
  What the edge kernel's body leaves in its output block, entry by entry.

  The body reads a block of gathered source features (6400 rows), the block of relative poses, and the weights; it
  stores, for every row, the edge's message `edgeRow` of that row: the pose's dense layer and ReLU, the two products
  with the upper and the lower half of the first weight added, the group norm, the ReLU and the last product.  A change
  of float format is the identity on the extended reals, so the roundings on the way into each product disappear.
-/
import proofs.«157215_j79577154060436_2_alg».proof.Proof.KRows
import proofs.«157215_j79577154060436_2_alg».proof.Proof.Gen.KernelIdeal.Frame

set_option maxRecDepth 16384

noncomputable section

open scoped BigOperators

namespace Cert.EdgeBody

open Cert.KernelIdeal Cert.KernelIdeal.Gen Idealize.ShloMosaic Idealize.ShloMosaic.ValueIdx Cert.Spec Cert.KVec

/-- The hidden layer before the norm: the source features times the upper half of the weight plus the pose features
    times the lower half. -/
theorem hidden_row (x0 : FVec Ideal S6400x128 .bf16) (x1 : FVec Ideal S6400x4 .f32) (x2 : FVec Ideal S4x128 .f32)
    (x3 : FVec Ideal S128 .f32) (x4 x5 : FVec Ideal S128x128 .f32) (r : Fin 6400) :
    row (k0_pay2 (F := Ideal) x1 x2 x3 x0 x4 x5) r
      = fun e => matvec (mat x4) (row x0 r) e + matvec (mat x5) (relu fun e' => matvec (mat x2) (row x1 r) e' + vec x3 e') e := by
  unfold k0_pay2
  simp only [truncf_eq, shapeCast_self, row_addf, row_dense dot_S6400x128_S128x128_S6400x128_1_0_0_1_n_n rfl,
    row_dense dot_S6400x4_S4x128_S6400x128_1_0_0_1_n_n rfl, row_max_zero, row_rowvec]

/-- The stored block, row by row. -/
theorem payload_row (x0 : FVec Ideal S6400x128 .bf16) (x1 : FVec Ideal S6400x4 .f32) (x2 : FVec Ideal S4x128 .f32)
    (x3 : FVec Ideal S128 .f32) (x4 x5 : FVec Ideal S128x128 .f32) (x6 x7 : FVec Ideal S128 .f32)
    (x8 : FVec Ideal S128x128 .f32) (r : Fin 6400) :
    row (k0_pay1 (F := Ideal) (k0_pay2 x1 x2 x3 x0 x4 x5) x6 x7 (k0_pay4 x1 x2 x3 x0 x4 x5) (k0_pay5 x1 x2 x3 x0 x4 x5) x8) r
      = edgeRow (row x0 r) (row x1 r) (mat x2) (vec x3) (mat x4) (mat x5) (vec x6) (vec x7) (mat x8) := by
  have hgn : k0_pay1 (F := Ideal) (k0_pay2 x1 x2 x3 x0 x4 x5) x6 x7 (k0_pay4 x1 x2 x3 x0 x4 x5) (k0_pay5 x1 x2 x3 x0 x4 x5) x8
      = truncf .bf16 (matmul dot_S6400x128_S128x128_S6400x128_1_0_0_1_n_n none
          (truncf .bf16 (maximumf (gnVec (k0_pay2 (F := Ideal) x1 x2 x3 x0 x4 x5) x6 x7 reduces_S6400x128_S6400 shapeCasts_S6400_S6400x1
              broadcasts_S6400x1_S6400x128 shapeCasts_S128_S1x128 broadcasts_S1x128_S6400x128)
            (broadcast S6400x128 (Scalar.ofBits (F := Ideal) .f32 0x00000000#32))) bitsLt_bf16_f32)
          (truncf .bf16 x8 bitsLt_bf16_f32) (constant (F := Ideal) S6400x128 .f32 0x00000000#32)) bitsLt_bf16_f32 := rfl
  rw [hgn]
  simp only [truncf_eq, row_dense dot_S6400x128_S128x128_S6400x128_1_0_0_1_n_n rfl, row_max_zero, row_gnVec, hidden_row]
  rfl

/-- The body's output block is `edgeArrK` of its input blocks. -/
theorem out0_9_eq (x0 : FVec Ideal S6400x128 .bf16) (x1 : FVec Ideal S6400x4 .f32) (x2 : FVec Ideal S4x128 .f32)
    (x3 : FVec Ideal S128 .f32) (x4 x5 : FVec Ideal S128x128 .f32) (x6 x7 : FVec Ideal S128 .f32)
    (x8 : FVec Ideal S128x128 .f32) :
    out0_9 (F := Ideal) x0 x1 x2 x3 x4 x5 x6 x7 x8 = edgeArrK x0 x1 x2 x3 x4 x5 x6 x7 x8 := by
  have hz2 : (![0, 0] : Fin 2 → Nat) = fun _ => 0 := funext fun a => by fin_cases a <;> rfl
  have hz1 : (![0] : Fin 1 → Nat) = fun _ => 0 := funext fun a => by fin_cases a; rfl
  unfold out0_9
  rw [View.canon_unit_zero hz2]
  simp only [View.ld_unit_zero (S := S6400x4) hz2, View.ld_unit_zero (S := S4x128) hz2, View.ld_unit_zero (S := S128) hz1,
    View.ld_unit_zero (S := S6400x128) hz2, View.ld_unit_zero (S := S128x128) hz2]
  funext y
  obtain ⟨r, e, rfl⟩ : ∃ (r : Fin 6400) (e : Fin 128), y = ix2 r e := ⟨y 0, y 1, eq_ix2 y⟩
  exact congrFun (payload_row x0 x1 x2 x3 x4 x5 x6 x7 x8 r) e

end Cert.EdgeBody

end
-- ==== Proof.EdgeArr.lean ====
/-
  From the edge kernel's blocks to its whole output array.

  The grid has 100 points; point `t` reads rows `6400 t … 6400 t + 6399` of the gathered features and of the relative
  poses and every weight whole, and writes back rows `6400 t … 6400 t + 6399` of the output.  So what point `t` writes
  back is block `t` of one function of the arrays as the region finds them — `edgeArrK`, row by row — and since the 100
  blocks tile the 640000 rows, the output array ends holding that function.
-/
import proofs.«157215_j79577154060436_2_alg».proof.Proof.EdgeBody

set_option maxRecDepth 16384

noncomputable section

open scoped BigOperators

namespace Cert.EdgeArr

open Cert.KernelIdeal Cert.KernelIdeal.Gen Idealize.ShloMosaic Idealize.ShloMosaic.TcCoe Idealize.ShloMosaic.ValueIdx
open Cert.Spec Cert.KVec Idealize.SL.Sem

variable (V : (c : Dev nD) → (b : Ref sig .tc) → Buf (Elt Ideal) ((c : Thread nD τ).loc b))

/-- The printed index maps over the grid: the two row-blocked inputs and the output move with the point, every weight
    stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The output array's function of the arrays the region finds. -/
def G (c : Dev nD) : (Mat 640000 128).Idx → EReal :=
  edgeArrK (V c main_v7) (V c main_v22) (V c main_arg5) (V c main_arg6) (V c main_v23) (V c main_v24) (V c main_arg8)
    (V c main_arg9) (V c main_arg10)

/-! ## The input blocks, read where the output's rows say -/

theorem row_blk0 (c : Dev nD) (t : Fin cfg0.N) (r : Fin 6400) (R : Fin 640000) (hR : R.val = t.val * 6400 + r.val) :
    row (iblk0 V c 0 t) r = row (V c main_v7) R := by
  funext k
  show V c main_v7 (((cfg0.win 0).blk t).view.emb (ix2 r k)) = V c main_v7 (ix2 R k)
  refine congrArg (V c main_v7) (funext fun a => Fin.ext ?_)
  obtain ⟨e0, e1, -⟩ := idx_facts t
  match a with
  | ⟨0, _⟩ => show win0_0.index t (0 : Fin 2) * 6400 + 1 * r.val = R.val; omega
  | ⟨1, _⟩ => show win0_0.index t (1 : Fin 2) * 128 + 1 * k.val = k.val; omega

theorem row_blk1 (c : Dev nD) (t : Fin cfg0.N) (r : Fin 6400) (R : Fin 640000) (hR : R.val = t.val * 6400 + r.val) :
    row (iblk0 V c 1 t) r = row (V c main_v22) R := by
  funext k
  show V c main_v22 (((cfg0.win 1).blk t).view.emb (ix2 r k)) = V c main_v22 (ix2 R k)
  refine congrArg (V c main_v22) (funext fun a => Fin.ext ?_)
  obtain ⟨-, -, e0, e1, -⟩ := idx_facts t
  match a with
  | ⟨0, _⟩ => show win0_1.index t (0 : Fin 2) * 6400 + 1 * r.val = R.val; omega
  | ⟨1, _⟩ => show win0_1.index t (1 : Fin 2) * 4 + 1 * k.val = k.val; omega

theorem blk2 (c : Dev nD) (t : Fin cfg0.N) : iblk0 V c 2 t = V c main_arg5 := by
  funext j
  show V c main_arg5 (((cfg0.win 2).blk t).view.emb j) = V c main_arg5 j
  refine congrArg (V c main_arg5) (funext fun a => Fin.ext ?_)
  obtain ⟨-, -, -, -, e0, e1, -⟩ := idx_facts t
  match a with
  | ⟨0, _⟩ => show win0_2.index t (0 : Fin 2) * 4 + 1 * (j 0).val = (j 0).val; omega
  | ⟨1, _⟩ => show win0_2.index t (1 : Fin 2) * 128 + 1 * (j 1).val = (j 1).val; omega

theorem blk3 (c : Dev nD) (t : Fin cfg0.N) : iblk0 V c 3 t = V c main_arg6 := by
  funext j
  show V c main_arg6 (((cfg0.win 3).blk t).view.emb j) = V c main_arg6 j
  refine congrArg (V c main_arg6) (funext fun a => Fin.ext ?_)
  obtain ⟨-, -, -, -, -, -, e0, -⟩ := idx_facts t
  match a with
  | ⟨0, _⟩ => show win0_3.index t (0 : Fin 1) * 128 + 1 * (j 0).val = (j 0).val; omega

theorem blk4 (c : Dev nD) (t : Fin cfg0.N) : iblk0 V c 4 t = V c main_v23 := by
  funext j
  show V c main_v23 (((cfg0.win 4).blk t).view.emb j) = V c main_v23 j
  refine congrArg (V c main_v23) (funext fun a => Fin.ext ?_)
  obtain ⟨-, -, -, -, -, -, -, e0, e1, -⟩ := idx_facts t
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem blk5 (c : Dev nD) (t : Fin cfg0.N) : iblk0 V c 5 t = V c main_v24 := by
  funext j
  show V c main_v24 (((cfg0.win 5).blk t).view.emb j) = V c main_v24 j
  refine congrArg (V c main_v24) (funext fun a => Fin.ext ?_)
  obtain ⟨-, -, -, -, -, -, -, -, -, e0, e1, -⟩ := idx_facts t
  match a with
  | ⟨0, _⟩ => show win0_5.index t (0 : Fin 2) * 128 + 1 * (j 0).val = (j 0).val; omega
  | ⟨1, _⟩ => show win0_5.index t (1 : Fin 2) * 128 + 1 * (j 1).val = (j 1).val; omega

theorem blk6 (c : Dev nD) (t : Fin cfg0.N) : iblk0 V c 6 t = V c main_arg8 := by
  funext j
  show V c main_arg8 (((cfg0.win 6).blk t).view.emb j) = V c main_arg8 j
  refine congrArg (V c main_arg8) (funext fun a => Fin.ext ?_)
  obtain ⟨-, -, -, -, -, -, -, -, -, -, -, e0, -⟩ := idx_facts t
  match a with
  | ⟨0, _⟩ => show win0_6.index t (0 : Fin 1) * 128 + 1 * (j 0).val = (j 0).val; omega

theorem blk7 (c : Dev nD) (t : Fin cfg0.N) : iblk0 V c 7 t = V c main_arg9 := by
  funext j
  show V c main_arg9 (((cfg0.win 7).blk t).view.emb j) = V c main_arg9 j
  refine congrArg (V c main_arg9) (funext fun a => Fin.ext ?_)
  obtain ⟨-, -, -, -, -, -, -, -, -, -, -, -, e0, -⟩ := idx_facts t
  match a with
  | ⟨0, _⟩ => show win0_7.index t (0 : Fin 1) * 128 + 1 * (j 0).val = (j 0).val; omega

theorem blk8 (c : Dev nD) (t : Fin cfg0.N) : iblk0 V c 8 t = V c main_arg10 := by
  funext j
  show V c main_arg10 (((cfg0.win 8).blk t).view.emb j) = V c main_arg10 j
  refine congrArg (V c main_arg10) (funext fun a => Fin.ext ?_)
  obtain ⟨-, -, -, -, -, -, -, -, -, -, -, -, -, e0, e1, -⟩ := idx_facts t
  match a with
  | ⟨0, _⟩ => show win0_8.index t (0 : Fin 2) * 128 + 1 * (j 0).val = (j 0).val; omega
  | ⟨1, _⟩ => show win0_8.index t (1 : Fin 2) * 128 + 1 * (j 1).val = (j 1).val; omega

/-! ## What a point writes back, and the cover -/

/-- What point `t` writes back is block `t` of `G`. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9, EdgeBody.out0_9_eq]
  funext y
  obtain ⟨r, e, rfl⟩ : ∃ (r : Fin 6400) (e : Fin 128), y = ix2 r e := ⟨y 0, y 1, eq_ix2 y⟩
  have ht : t.val < 100 := t.isLt
  have hr : r.val < 6400 := r.isLt
  have hR : t.val * 6400 + r.val < 640000 := by omega
  have hemb : ((cfg0.win 9).blk t).view.emb (ix2 r e) = ix2 (⟨t.val * 6400 + r.val, hR⟩ : Fin 640000) e := by
    funext a; apply Fin.ext
    obtain ⟨-, -, -, -, -, -, -, -, -, -, -, -, -, -, -, e0, e1⟩ := idx_facts t
    match a with
    | ⟨0, _⟩ => show win0_9.index t (0 : Fin 2) * 6400 + 1 * r.val = t.val * 6400 + r.val; omega
    | ⟨1, _⟩ => show win0_9.index t (1 : Fin 2) * 128 + 1 * e.val = e.val; omega
  show edgeRow (row (iblk0 V c 0 t) r) (row (iblk0 V c 1 t) r) (mat (iblk0 V c 2 t)) (vec (iblk0 V c 3 t))
      (mat (iblk0 V c 4 t)) (mat (iblk0 V c 5 t)) (vec (iblk0 V c 6 t)) (vec (iblk0 V c 7 t)) (mat (iblk0 V c 8 t)) e
    = G V c (((cfg0.win 9).blk t).view.emb (ix2 r e))
  rw [hemb, row_blk0 V c t r ⟨t.val * 6400 + r.val, hR⟩ rfl, row_blk1 V c t r ⟨t.val * 6400 + r.val, hR⟩ rfl,
    blk2, blk3, blk4, blk5, blk6, blk7, blk8]
  rfl

/-- An index of the output array is in point `t`'s block iff each coordinate is in the block's range on its axis. -/
theorem mem_blk (t : Fin cfg0.N) (i : S640000x128.Idx) :
    i ∈ ((cfg0.win 9).blk t).view.set ↔ ∀ a : Fin 2, win0_9.index t a * S6400x128.size a ≤ (i a).val
      ∧ (i a).val < win0_9.index t a * S6400x128.size a + S6400x128.size a := by
  show i ∈ ((View.whole main_v25).slice (win0_9.rect t)).set ↔ _
  rw [View.set_slice_whole, Rect.mem_set_unit]
  exact Iff.rfl

/-- Every row of the output is in some point's block: row `R` in point `R / 6400`'s. -/
theorem cover (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  have hq : (i 0).val / 6400 < 100 := by omega
  refine ⟨⟨(i 0).val / 6400, hq⟩, flush0_9 _, ?_⟩
  rw [mem_blk]
  obtain ⟨-, -, -, -, -, -, -, -, -, -, -, -, -, -, -, e0, e1⟩ := idx_facts ⟨(i 0).val / 6400, hq⟩
  intro a
  match a with
  | ⟨0, _⟩ =>
    show win0_9.index ⟨(i 0).val / 6400, hq⟩ (0 : Fin 2) * 6400 ≤ (i 0).val
      ∧ (i 0).val < win0_9.index ⟨(i 0).val / 6400, hq⟩ (0 : Fin 2) * 6400 + 6400
    rw [e0]
    show (i 0).val / 6400 * 6400 ≤ (i 0).val ∧ (i 0).val < (i 0).val / 6400 * 6400 + 6400
    omega
  | ⟨1, _⟩ =>
    show win0_9.index ⟨(i 0).val / 6400, hq⟩ (1 : Fin 2) * 128 ≤ (i 1).val
      ∧ (i 1).val < win0_9.index ⟨(i 0).val / 6400, hq⟩ (1 : Fin 2) * 128 + 128
    rw [e1]
    omega

/-- The output array after the region: `edgeArrK` of the arrays the region finds. -/
theorem final (c : Dev nD) : (dat0 (F := Ideal) V c).arrAt 9 cfg0.N = G V c :=
  (dat0 (F := Ideal) V c).arrAt_eq_of_cover 9 (G V c) (fun t _ => flushed_eq V c t) cover

end Cert.EdgeArr

end
-- ==== Proof.NodeBody.lean ====
/-
  What the node kernel's body leaves in its output block, entry by entry.

  The body reads a block of 4000 nodes' features and of their aggregated messages, and the weights; it stores, for every
  row, the node's update `nodeRow`: the features' linear image plus the aggregate, then three normalised layers, the
  last closed by the residual connection and a ReLU.
-/
import proofs.«157215_j79577154060436_2_alg».proof.Proof.KRows
import proofs.«157215_j79577154060436_2_alg».proof.Proof.Gen.KernelIdeal.Frame

set_option maxRecDepth 16384

noncomputable section

open scoped BigOperators

namespace Cert.NodeBody

open Cert.KernelIdeal Cert.KernelIdeal.Gen Idealize.ShloMosaic Idealize.ShloMosaic.ValueIdx Cert.Spec Cert.KVec

/-- The first two layers: the normalised sum of the features' linear image and the aggregate, its ReLU, and the next
    product. -/
theorem layer1_row (x0 x1 : FVec Ideal S4000x128 .f32) (x2 : FVec Ideal S128x128 .f32) (x3 x4 : FVec Ideal S128 .f32)
    (x5 : FVec Ideal S128x128 .f32) (r : Fin 4000) :
    row (k1_pay2 (F := Ideal) x0 x2 x1 x3 x4 x5) r
      = matvec (mat x5) (relu (gnRow (fun e' => matvec (mat x2) (row x0 r) e' + row x1 r e') (vec x3) (vec x4))) := by
  have h : k1_pay2 (F := Ideal) x0 x2 x1 x3 x4 x5
      = matmul dot_S4000x128_S128x128_S4000x128_1_0_0_1_n_n none (truncf .bf16 (maximumf (gnVec (addf (matmul dot_S4000x128_S128x128_S4000x128_1_0_0_1_n_n none (truncf .bf16 x0 bitsLt_bf16_f32)
            (truncf .bf16 x2 bitsLt_bf16_f32) (constant (F := Ideal) S4000x128 .f32 0x00000000#32)) (shapeCast S4000x128 x1 shapeCasts_S4000x128_S4000x128)) x3 x4 reduces_S4000x128_S4000 shapeCasts_S4000_S4000x1 broadcasts_S4000x1_S4000x128 shapeCasts_S128_S1x128 broadcasts_S1x128_S4000x128)
          (broadcast S4000x128 (Scalar.ofBits (F := Ideal) .f32 0x00000000#32))) bitsLt_bf16_f32) (truncf .bf16 x5 bitsLt_bf16_f32) (constant (F := Ideal) S4000x128 .f32 0x00000000#32) := rfl
  rw [h]
  simp only [truncf_eq, shapeCast_self, row_dense dot_S4000x128_S128x128_S4000x128_1_0_0_1_n_n rfl, row_max_zero, row_gnVec, row_addf]

/-- The third layer's product. -/
theorem layer2_row (y : FVec Ideal S4000x128 .f32) (x6 x7 : FVec Ideal S128 .f32) (x8 : FVec Ideal S128x128 .f32) (r : Fin 4000) :
    row (k1_pay3 (F := Ideal) y x6 x7 x8) r = matvec (mat x8) (relu (gnRow (row y r) (vec x6) (vec x7))) := by
  have h : k1_pay3 (F := Ideal) y x6 x7 x8
      = matmul dot_S4000x128_S128x128_S4000x128_1_0_0_1_n_n none (truncf .bf16 (maximumf (gnVec y x6 x7 reduces_S4000x128_S4000 shapeCasts_S4000_S4000x1 broadcasts_S4000x1_S4000x128 shapeCasts_S128_S1x128 broadcasts_S1x128_S4000x128) (broadcast S4000x128 (Scalar.ofBits (F := Ideal) .f32 0x00000000#32))) bitsLt_bf16_f32)
          (truncf .bf16 x8 bitsLt_bf16_f32) (constant (F := Ideal) S4000x128 .f32 0x00000000#32) := rfl
  rw [h]
  simp only [truncf_eq, row_dense dot_S4000x128_S128x128_S4000x128_1_0_0_1_n_n rfl, row_max_zero, row_gnVec]

/-- The stored block, row by row. -/
theorem payload_row (x0 : FVec Ideal S4000x128 .f32) (y : FVec Ideal S4000x128 .f32) (x6 x7 : FVec Ideal S128 .f32)
    (x8 : FVec Ideal S128x128 .f32) (x9 x10 : FVec Ideal S128 .f32) (r : Fin 4000) :
    row (k1_pay1 (F := Ideal) x0 (k1_pay3 y x6 x7 x8) x9 x10 (k1_pay4 y x6 x7 x8) (k1_pay5 y x6 x7 x8) (k1_pay6 (F := Ideal))) r
      = relu fun e => gnRow (row (k1_pay3 (F := Ideal) y x6 x7 x8) r) (vec x9) (vec x10) e + row x0 r e := by
  have h : k1_pay1 (F := Ideal) x0 (k1_pay3 y x6 x7 x8) x9 x10 (k1_pay4 y x6 x7 x8) (k1_pay5 y x6 x7 x8) (k1_pay6 (F := Ideal))
      = maximumf (addf (gnVec (k1_pay3 (F := Ideal) y x6 x7 x8) x9 x10 reduces_S4000x128_S4000 shapeCasts_S4000_S4000x1 broadcasts_S4000x1_S4000x128 shapeCasts_S128_S1x128 broadcasts_S1x128_S4000x128) x0) (broadcast S4000x128 (Scalar.ofBits (F := Ideal) .f32 0x00000000#32)) := rfl
  rw [h]
  simp only [row_max_zero, row_gnVec, row_addf]

/-- The body's output block is `nodeArr` of its input blocks. -/
theorem out1_11_eq (x0 x1 : FVec Ideal S4000x128 .f32) (x2 : FVec Ideal S128x128 .f32) (x3 x4 : FVec Ideal S128 .f32)
    (x5 : FVec Ideal S128x128 .f32) (x6 x7 : FVec Ideal S128 .f32) (x8 : FVec Ideal S128x128 .f32)
    (x9 x10 : FVec Ideal S128 .f32) :
    out1_11 (F := Ideal) x0 x1 x2 x3 x4 x5 x6 x7 x8 x9 x10 = nodeArr x0 x1 x2 x3 x4 x5 x6 x7 x8 x9 x10 := by
  have hz2 : (![0, 0] : Fin 2 → Nat) = fun _ => 0 := funext fun a => by fin_cases a <;> rfl
  have hz1 : (![0] : Fin 1 → Nat) = fun _ => 0 := funext fun a => by fin_cases a; rfl
  unfold out1_11
  rw [View.canon_unit_zero hz2]
  simp only [View.ld_unit_zero (S := S128) hz1, View.ld_unit_zero (S := S4000x128) hz2, View.ld_unit_zero (S := S128x128) hz2]
  funext j
  obtain ⟨r, e, rfl⟩ : ∃ (r : Fin 4000) (e : Fin 128), j = ix2 r e := ⟨j 0, j 1, eq_ix2 j⟩
  refine (congrFun (payload_row x0 (k1_pay2 (F := Ideal) x0 x2 x1 x3 x4 x5) x6 x7 x8 x9 x10 r) e).trans ?_
  rw [layer2_row, layer1_row]
  rfl

end Cert.NodeBody

end
-- ==== Proof.NodeArr.lean ====
/-
  From the node kernel's blocks to its whole output array.

  The grid has 10 points; point `t` reads rows `4000 t … 4000 t + 3999` of the nodes' features and of the aggregated
  messages and every weight whole, and writes back the same rows of the output.  What point `t` writes back is block
  `t` of `nodeArr` of the arrays as the region finds them, and the 10 blocks tile the 40000 rows.
-/
import proofs.«157215_j79577154060436_2_alg».proof.Proof.NodeBody

set_option maxRecDepth 16384

noncomputable section

open scoped BigOperators

namespace Cert.NodeArr

open Cert.KernelIdeal Cert.KernelIdeal.Gen Idealize.ShloMosaic Idealize.ShloMosaic.TcCoe Idealize.ShloMosaic.ValueIdx
open Cert.Spec Cert.KVec Idealize.SL.Sem

variable (V : (c : Dev nD) → (b : Ref sig .tc) → Buf (Elt Ideal) ((c : Thread nD τ).loc b))

/-- The printed index maps over the grid: the two row-blocked inputs and the output move with the point, every weight
    stays at block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 1) = 0
    ∧ win1_11.index t (0 : Fin 2) = t.val
    ∧ win1_11.index t (1 : Fin 2) = 0 :=
  (by decide +kernel : ∀ t : Fin grid1.N, _)

/-- The output array's function of the arrays the region finds. -/
def G (c : Dev nD) : (Mat 40000 128).Idx → EReal :=
  nodeArr (V c main_arg1) (V c main_v29) (V c main_arg4) (V c main_arg11) (V c main_arg12) (V c main_arg13) (V c main_arg14)
    (V c main_arg15) (V c main_arg16) (V c main_arg17) (V c main_arg18)

/-! ## The input blocks, read where the output's rows say -/

theorem row_blk0 (c : Dev nD) (t : Fin cfg1.N) (r : Fin 4000) (R : Fin 40000) (hR : R.val = t.val * 4000 + r.val) :
    row (iblk1 V c 0 t) r = row (V c main_arg1) R := by
  funext k
  show V c main_arg1 (((cfg1.win 0).blk t).view.emb (ix2 r k)) = V c main_arg1 (ix2 R k)
  refine congrArg (V c main_arg1) (funext fun a => Fin.ext ?_)
  obtain ⟨e0, e1, -⟩ := idx_facts t
  match a with
  | ⟨0, _⟩ => show win1_0.index t (0 : Fin 2) * 4000 + 1 * r.val = R.val; omega
  | ⟨1, _⟩ => show win1_0.index t (1 : Fin 2) * 128 + 1 * k.val = k.val; omega

theorem row_blk1 (c : Dev nD) (t : Fin cfg1.N) (r : Fin 4000) (R : Fin 40000) (hR : R.val = t.val * 4000 + r.val) :
    row (iblk1 V c 1 t) r = row (V c main_v29) R := by
  funext k
  show V c main_v29 (((cfg1.win 1).blk t).view.emb (ix2 r k)) = V c main_v29 (ix2 R k)
  refine congrArg (V c main_v29) (funext fun a => Fin.ext ?_)
  obtain ⟨-, -, e0, e1, -⟩ := idx_facts t
  match a with
  | ⟨0, _⟩ => show win1_1.index t (0 : Fin 2) * 4000 + 1 * r.val = R.val; omega
  | ⟨1, _⟩ => show win1_1.index t (1 : Fin 2) * 128 + 1 * k.val = k.val; omega

theorem blk2 (c : Dev nD) (t : Fin cfg1.N) : iblk1 V c 2 t = V c main_arg4 := by
  funext j
  show V c main_arg4 (((cfg1.win 2).blk t).view.emb j) = V c main_arg4 j
  refine congrArg (V c main_arg4) (funext fun a => Fin.ext ?_)
  obtain ⟨-, -, -, -, e0, e1, -⟩ := idx_facts t
  match a with
  | ⟨0, _⟩ => show win1_2.index t (0 : Fin 2) * 128 + 1 * (j 0).val = (j 0).val; omega
  | ⟨1, _⟩ => show win1_2.index t (1 : Fin 2) * 128 + 1 * (j 1).val = (j 1).val; omega

theorem blk3 (c : Dev nD) (t : Fin cfg1.N) : iblk1 V c 3 t = V c main_arg11 := by
  funext j
  show V c main_arg11 (((cfg1.win 3).blk t).view.emb j) = V c main_arg11 j
  refine congrArg (V c main_arg11) (funext fun a => Fin.ext ?_)
  obtain ⟨-, -, -, -, -, -, e0, -⟩ := idx_facts t
  match a with
  | ⟨0, _⟩ => show win1_3.index t (0 : Fin 1) * 128 + 1 * (j 0).val = (j 0).val; omega

theorem blk4 (c : Dev nD) (t : Fin cfg1.N) : iblk1 V c 4 t = V c main_arg12 := by
  funext j
  show V c main_arg12 (((cfg1.win 4).blk t).view.emb j) = V c main_arg12 j
  refine congrArg (V c main_arg12) (funext fun a => Fin.ext ?_)
  obtain ⟨-, -, -, -, -, -, -, e0, -⟩ := idx_facts t
  match a with
  | ⟨0, _⟩ => show win1_4.index t (0 : Fin 1) * 128 + 1 * (j 0).val = (j 0).val; omega

theorem blk5 (c : Dev nD) (t : Fin cfg1.N) : iblk1 V c 5 t = V c main_arg13 := by
  funext j
  show V c main_arg13 (((cfg1.win 5).blk t).view.emb j) = V c main_arg13 j
  refine congrArg (V c main_arg13) (funext fun a => Fin.ext ?_)
  obtain ⟨-, -, -, -, -, -, -, -, e0, e1, -⟩ := idx_facts t
  match a with
  | ⟨0, _⟩ => show win1_5.index t (0 : Fin 2) * 128 + 1 * (j 0).val = (j 0).val; omega
  | ⟨1, _⟩ => show win1_5.index t (1 : Fin 2) * 128 + 1 * (j 1).val = (j 1).val; omega

theorem blk6 (c : Dev nD) (t : Fin cfg1.N) : iblk1 V c 6 t = V c main_arg14 := by
  funext j
  show V c main_arg14 (((cfg1.win 6).blk t).view.emb j) = V c main_arg14 j
  refine congrArg (V c main_arg14) (funext fun a => Fin.ext ?_)
  obtain ⟨-, -, -, -, -, -, -, -, -, -, e0, -⟩ := idx_facts t
  match a with
  | ⟨0, _⟩ => show win1_6.index t (0 : Fin 1) * 128 + 1 * (j 0).val = (j 0).val; omega

theorem blk7 (c : Dev nD) (t : Fin cfg1.N) : iblk1 V c 7 t = V c main_arg15 := by
  funext j
  show V c main_arg15 (((cfg1.win 7).blk t).view.emb j) = V c main_arg15 j
  refine congrArg (V c main_arg15) (funext fun a => Fin.ext ?_)
  obtain ⟨-, -, -, -, -, -, -, -, -, -, -, e0, -⟩ := idx_facts t
  match a with
  | ⟨0, _⟩ => show win1_7.index t (0 : Fin 1) * 128 + 1 * (j 0).val = (j 0).val; omega

theorem blk8 (c : Dev nD) (t : Fin cfg1.N) : iblk1 V c 8 t = V c main_arg16 := by
  funext j
  show V c main_arg16 (((cfg1.win 8).blk t).view.emb j) = V c main_arg16 j
  refine congrArg (V c main_arg16) (funext fun a => Fin.ext ?_)
  obtain ⟨-, -, -, -, -, -, -, -, -, -, -, -, e0, e1, -⟩ := idx_facts t
  match a with
  | ⟨0, _⟩ => show win1_8.index t (0 : Fin 2) * 128 + 1 * (j 0).val = (j 0).val; omega
  | ⟨1, _⟩ => show win1_8.index t (1 : Fin 2) * 128 + 1 * (j 1).val = (j 1).val; omega

theorem blk9 (c : Dev nD) (t : Fin cfg1.N) : iblk1 V c 9 t = V c main_arg17 := by
  funext j
  show V c main_arg17 (((cfg1.win 9).blk t).view.emb j) = V c main_arg17 j
  refine congrArg (V c main_arg17) (funext fun a => Fin.ext ?_)
  obtain ⟨-, -, -, -, -, -, -, -, -, -, -, -, -, -, e0, -⟩ := idx_facts t
  match a with
  | ⟨0, _⟩ => show win1_9.index t (0 : Fin 1) * 128 + 1 * (j 0).val = (j 0).val; omega

theorem blk10 (c : Dev nD) (t : Fin cfg1.N) : iblk1 V c 10 t = V c main_arg18 := by
  funext j
  show V c main_arg18 (((cfg1.win 10).blk t).view.emb j) = V c main_arg18 j
  refine congrArg (V c main_arg18) (funext fun a => Fin.ext ?_)
  obtain ⟨-, -, -, -, -, -, -, -, -, -, -, -, -, -, -, e0, -⟩ := idx_facts t
  match a with
  | ⟨0, _⟩ => show win1_10.index t (0 : Fin 1) * 128 + 1 * (j 0).val = (j 0).val; omega

/-! ## What a point writes back, and the cover -/

/-- What point `t` writes back is block `t` of `G`. -/
theorem flushed_eq (c : Dev nD) (t : Fin cfg1.N) :
    (dat1 (F := Ideal) V c).flushed 11 t = ((cfg1.win 11).blk t).view.read (Elt Ideal) (G V c) := by
  show (cfg1.win 11).cut (grid1.coords t) ((dat1 (F := Ideal) V c).after 11 t) = _
  rw [after1_11, NodeBody.out1_11_eq]
  funext y
  obtain ⟨r, e, rfl⟩ : ∃ (r : Fin 4000) (e : Fin 128), y = ix2 r e := ⟨y 0, y 1, eq_ix2 y⟩
  have ht : t.val < 10 := t.isLt
  have hr : r.val < 4000 := r.isLt
  have hR : t.val * 4000 + r.val < 40000 := by omega
  have hemb : ((cfg1.win 11).blk t).view.emb (ix2 r e) = ix2 (⟨t.val * 4000 + r.val, hR⟩ : Fin 40000) e := by
    funext a; apply Fin.ext
    obtain ⟨-, -, -, -, -, -, -, -, -, -, -, -, -, -, -, -, e0, e1⟩ := idx_facts t
    match a with
    | ⟨0, _⟩ => show win1_11.index t (0 : Fin 2) * 4000 + 1 * r.val = t.val * 4000 + r.val; omega
    | ⟨1, _⟩ => show win1_11.index t (1 : Fin 2) * 128 + 1 * e.val = e.val; omega
  show nodeRow (row (iblk1 V c 0 t) r) (row (iblk1 V c 1 t) r) (mat (iblk1 V c 2 t)) (vec (iblk1 V c 3 t)) (vec (iblk1 V c 4 t))
      (mat (iblk1 V c 5 t)) (vec (iblk1 V c 6 t)) (vec (iblk1 V c 7 t)) (mat (iblk1 V c 8 t)) (vec (iblk1 V c 9 t))
      (vec (iblk1 V c 10 t)) e
    = G V c (((cfg1.win 11).blk t).view.emb (ix2 r e))
  rw [hemb, row_blk0 V c t r ⟨t.val * 4000 + r.val, hR⟩ rfl, row_blk1 V c t r ⟨t.val * 4000 + r.val, hR⟩ rfl,
    blk2, blk3, blk4, blk5, blk6, blk7, blk8, blk9, blk10]
  rfl

/-- An index of the output array is in point `t`'s block iff each coordinate is in the block's range on its axis. -/
theorem mem_blk (t : Fin cfg1.N) (i : S40000x128.Idx) :
    i ∈ ((cfg1.win 11).blk t).view.set ↔ ∀ a : Fin 2, win1_11.index t a * S4000x128.size a ≤ (i a).val
      ∧ (i a).val < win1_11.index t a * S4000x128.size a + S4000x128.size a := by
  show i ∈ ((View.whole main_v30).slice (win1_11.rect t)).set ↔ _
  rw [View.set_slice_whole, Rect.mem_set_unit]
  exact Iff.rfl

/-- Every row of the output is in some point's block: row `R` in point `R / 4000`'s. -/
theorem cover (i : S40000x128.Idx) :
    ∃ t : Fin cfg1.N, (cfg1.win 11).flush t = true ∧ i ∈ ((cfg1.win 11).blk t).view.set := by
  have hi0 : (i 0).val < 40000 := (i 0).isLt
  have hi1 : (i 1).val < 128 := (i 1).isLt
  have hq : (i 0).val / 4000 < 10 := by omega
  refine ⟨⟨(i 0).val / 4000, hq⟩, flush1_11 _, ?_⟩
  rw [mem_blk]
  obtain ⟨-, -, -, -, -, -, -, -, -, -, -, -, -, -, -, -, e0, e1⟩ := idx_facts ⟨(i 0).val / 4000, hq⟩
  intro a
  match a with
  | ⟨0, _⟩ =>
    show win1_11.index ⟨(i 0).val / 4000, hq⟩ (0 : Fin 2) * 4000 ≤ (i 0).val
      ∧ (i 0).val < win1_11.index ⟨(i 0).val / 4000, hq⟩ (0 : Fin 2) * 4000 + 4000
    rw [e0]
    show (i 0).val / 4000 * 4000 ≤ (i 0).val ∧ (i 0).val < (i 0).val / 4000 * 4000 + 4000
    omega
  | ⟨1, _⟩ =>
    show win1_11.index ⟨(i 0).val / 4000, hq⟩ (1 : Fin 2) * 128 ≤ (i 1).val
      ∧ (i 1).val < win1_11.index ⟨(i 0).val / 4000, hq⟩ (1 : Fin 2) * 128 + 128
    rw [e1]
    omega

/-- The output array after the region: `nodeArr` of the arrays the region finds. -/
theorem final (c : Dev nD) : (dat1 (F := Ideal) V c).arrAt 11 cfg1.N = G V c :=
  (dat1 (F := Ideal) V c).arrAt_eq_of_cover 11 (G V c) (fun t _ => flushed_eq V c t) cover

end Cert.NodeArr

end
-- ==== Proof.RefEdge.lean ====
/-
  The reference's per-edge message, read entry by entry, is the row function `edgeRow`.

  Four stages, each read at row `r`, column `e` with the stage's input kept as it is: the pose layer (a 4-term sum, a
  bias, a clip at 0), the 256-wide product split into its two 128-wide halves, the normalisation (mean and variance of
  the row are sums of 128 terms divided by 128), and the clip followed by the last 128-term product.  Every stage is the
  same sums and products on both sides; the only regrouping is the split of the 256-term sum.
-/
import proofs.«157215_j79577154060436_2_alg».proof.Proof.Spec
import proofs.«157215_j79577154060436_2_alg».proof.Proof.RefRead

noncomputable section

open scoped BigOperators

namespace Cert.RefValue

open Cert.ReferenceIdeal Cert.ReferenceIdeal.Gen Cert.ReferenceIdeal.ReadP Cert.Spec
open Idealize.ShloMosaic Idealize.ShloMosaic.TcCoe Idealize.SL.Sem Idealize.ShloMosaic.StableHlo Idealize.ShloMosaic.ValueIdx

/-- The pose layer: the relative pose of edge `r` through the 4×128 dense layer, plus the bias, clipped below at 0.
    The clip's second operand is the zero word broadcast to every entry. -/
theorem edge_pose (x2 : (⟨S40000x4, .f32⟩ : BufTy).Contents (Elt Ideal)) (x3 : (⟨S40000x4, .f32⟩ : BufTy).Contents (Elt Ideal)) (x5 : (⟨S4x128, .f32⟩ : BufTy).Contents (Elt Ideal)) (x6 : (⟨S128, .f32⟩ : BufTy).Contents (Elt Ideal)) (x19 : (⟨S640000, .i32⟩ : BufTy).Contents (Elt Ideal)) (x20 : (⟨S640000, .i32⟩ : BufTy).Contents (Elt Ideal)) (r : Fin 640000) (e : Fin 128) :
    val_main_v19 (F := Ideal) x2 x3 x5 x6 x19 x20 (ix2 r e)
      = relu (fun e' => matvec (mat x5) (row (val_main_v14 (F := Ideal) x2 x3 x19 x20) r) e' + vec x6 e') e := by
  have e_l : ∀ (r : Fin 640000) (e : Fin 128) (k : Fin 4), lidx_main_v15 (ix2 r e) k = ix2 r k := fun r e k => funext fun a => Fin.ext (by match a with | ⟨0, _⟩ => rfl | ⟨1, _⟩ => rfl)
  have e_r : ∀ (r : Fin 640000) (e : Fin 128) (k : Fin 4), ridx_main_v15 (ix2 r e) k = ix2 k e := fun r e k => funext fun a => Fin.ext (by match a with | ⟨0, _⟩ => rfl | ⟨1, _⟩ => rfl)
  have e_row : ∀ (r : Fin 640000) (e : Fin 128), idx_main_v17 (ix2 r e) = ix2 (⟨0, Nat.one_pos⟩ : Fin 1) e := fun r e => funext fun a => Fin.ext (by match a with | ⟨0, _⟩ => rfl | ⟨1, _⟩ => rfl)
  have e_v : ∀ (z : Fin 1) (e : Fin 128), idx_main_v16 (ix2 z e) = ix1 e := fun z e => funext fun a => Fin.ext (by match a with | ⟨0, _⟩ => rfl)
  simp only [val_main_v19_apply, val_main_v18_apply, val_main_v15_apply, val_main_v17_apply, val_main_v16_apply,
    val_main_call0_v0_apply, val_main_call0_cst_apply, e_l, e_r, e_row, e_v,
    Ideal.ofBits_def, Ideal.addf_def, Ideal.maximumf_def, Ideal.ofBits_zero_f32, relu, matvec, mat, row, vec]

/-- The 256-wide product of the joined row (gathered features, then pose features) with the 256×128 weight is the
    product of the features with the weight's upper half plus the product of the pose features with its lower half:
    the sum over 256 indices splits into the first 128 and the last 128. -/
theorem edge_mm (x0 : (⟨S40000x128, .f32⟩ : BufTy).Contents (Elt Ideal)) (x2 : (⟨S40000x4, .f32⟩ : BufTy).Contents (Elt Ideal)) (x3 : (⟨S40000x4, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x19 : (⟨S640000, .i32⟩ : BufTy).Contents (Elt Ideal)) (x20 : (⟨S640000, .i32⟩ : BufTy).Contents (Elt Ideal)) (r : Fin 640000) (e : Fin 128) :
    val_main_v28 (F := Ideal) x0 x2 x3 x5 x6 x7 x19 x20 (ix2 r e)
      = matvec (upper x7) (row (val_main_v26 (F := Ideal) x0 x19) r) e
        + matvec (lower x7) (fun f => val_main_v19 (F := Ideal) x2 x3 x5 x6 x19 x20 (ix2 r f)) e := by
  rw [val_main_v28_apply]
  refine (Fin.sum_univ_add (a := 128) (b := 128) _).trans ?_
  refine congrArg₂ (· + ·) (Finset.sum_congr rfl fun k _ => ?_) (Finset.sum_congr rfl fun k _ => ?_)
  · refine congrArg₂ (· * ·) ?_ (congrArg x7 (funext fun a => Fin.ext (by match a with | ⟨0, _⟩ => rfl | ⟨1, _⟩ => rfl)))
    unfold val_main_v27
    exact concatenate_pair_apply_left (t := S640000x256) 1 (val_main_v26 (F := Ideal) x0 x19) (val_main_v19 (F := Ideal) x2 x3 x5 x6 x19 x20) concatenates_S640000x128_S640000x128_S640000x256_d1
      (lidx_main_v28 (ix2 r e) (Fin.castAdd 128 k)) rfl (ix2 r k) (fun b => by
      match b with
      | ⟨0, _⟩ => rfl
      | ⟨1, _⟩ => rfl)
  · refine congrArg₂ (· * ·) ?_ (congrArg x7 (funext fun a => Fin.ext (by match a with | ⟨0, _⟩ => rfl | ⟨1, _⟩ => rfl)))
    unfold val_main_v27
    exact concatenate_pair_apply_right (t := S640000x256) 1 (val_main_v26 (F := Ideal) x0 x19) (val_main_v19 (F := Ideal) x2 x3 x5 x6 x19 x20) concatenates_S640000x128_S640000x128_S640000x256_d1
      (lidx_main_v28 (ix2 r e) (Fin.natAdd 128 k)) rfl rfl (ix2 r k)
      (fun b hb => by
        match b with
        | ⟨0, _⟩ => rfl
        | ⟨1, _⟩ => exact absurd rfl hb)
      (Nat.add_comm k.val 128)

/-- The normalisation block on the 640000 rows: the entry in row `r`, column `e` is the normalised row of the block's
    input, scaled and shifted.  The two sums start from the zero word, the divisor is the word of 128, the constant
    added to the variance is the programs' small constant. -/
theorem edge_norm (x0 : (⟨S40000x128, .f32⟩ : BufTy).Contents (Elt Ideal)) (x2 : (⟨S40000x4, .f32⟩ : BufTy).Contents (Elt Ideal)) (x3 : (⟨S40000x4, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x19 : (⟨S640000, .i32⟩ : BufTy).Contents (Elt Ideal)) (x20 : (⟨S640000, .i32⟩ : BufTy).Contents (Elt Ideal)) (r : Fin 640000) (e : Fin 128) :
    val_main_v52 (F := Ideal) x0 x2 x3 x5 x6 x7 x8 x9 x19 x20 (ix2 r e)
      = gnRow (fun f => val_main_v28 (F := Ideal) x0 x2 x3 x5 x6 x7 x19 x20 (ix2 r f)) (vec x8) (vec x9) e := by
  have e_col : ∀ (r : Fin 640000) (e : Fin 128), idx_main_v33 (ix2 r e) = ix2 r (⟨0, Nat.one_pos⟩ : Fin 1) := fun r e => funext fun a => Fin.ext (by match a with | ⟨0, _⟩ => rfl | ⟨1, _⟩ => rfl)
  have e_col2 : ∀ (r : Fin 640000) (e : Fin 128), idx_main_v40 (ix2 r e) = ix2 r (⟨0, Nat.one_pos⟩ : Fin 1) := fun r e => funext fun a => Fin.ext (by match a with | ⟨0, _⟩ => rfl | ⟨1, _⟩ => rfl)
  have e_col3 : ∀ (r : Fin 640000) (e : Fin 128), idx_main_v45 (ix2 r e) = ix2 r (⟨0, Nat.one_pos⟩ : Fin 1) := fun r e => funext fun a => Fin.ext (by match a with | ⟨0, _⟩ => rfl | ⟨1, _⟩ => rfl)
  have e_vec : ∀ (r : Fin 640000) (z : Fin 1), idx_main_v30 (ix2 r z) = ix1 r := fun r z => funext fun a => Fin.ext (by match a with | ⟨0, _⟩ => rfl)
  have e_vec2 : ∀ (r : Fin 640000) (z : Fin 1), idx_main_v37 (ix2 r z) = ix1 r := fun r z => funext fun a => Fin.ext (by match a with | ⟨0, _⟩ => rfl)
  have e_sum : ∀ (r : Fin 640000) (k : Fin 128), idx_main_v29 (ix1 r) k = ix2 r k := fun r k => funext fun a => Fin.ext (by match a with | ⟨0, _⟩ => rfl | ⟨1, _⟩ => rfl)
  have e_sum2 : ∀ (r : Fin 640000) (k : Fin 128), idx_main_v36 (ix1 r) k = ix2 r k := fun r k => funext fun a => Fin.ext (by match a with | ⟨0, _⟩ => rfl | ⟨1, _⟩ => rfl)
  have e_rowg : ∀ (r : Fin 640000) (e : Fin 128), idx_main_v48 (ix2 r e) = ix2 (⟨0, Nat.one_pos⟩ : Fin 1) e := fun r e => funext fun a => Fin.ext (by match a with | ⟨0, _⟩ => rfl | ⟨1, _⟩ => rfl)
  have e_rowb : ∀ (r : Fin 640000) (e : Fin 128), idx_main_v51 (ix2 r e) = ix2 (⟨0, Nat.one_pos⟩ : Fin 1) e := fun r e => funext fun a => Fin.ext (by match a with | ⟨0, _⟩ => rfl | ⟨1, _⟩ => rfl)
  have e_g : ∀ (z : Fin 1) (e : Fin 128), idx_main_v47 (ix2 z e) = ix1 e := fun z e => funext fun a => Fin.ext (by match a with | ⟨0, _⟩ => rfl)
  have e_b : ∀ (z : Fin 1) (e : Fin 128), idx_main_v50 (ix2 z e) = ix1 e := fun z e => funext fun a => Fin.ext (by match a with | ⟨0, _⟩ => rfl)
  simp only [val_main_v52_apply, val_main_v49_apply, val_main_v46_apply, val_main_v41_apply, val_main_v45_apply, val_main_v44_apply, val_main_v43_apply, val_main_v39_apply, val_main_v37_apply, val_main_v36_apply, val_main_v35_apply, val_main_v34_apply, val_main_v33_apply, val_main_v32_apply, val_main_v30_apply, val_main_v29_apply, val_main_v31_apply, val_main_v38_apply, val_main_v40_apply, val_main_v42_apply, val_main_v48_apply, val_main_v47_apply, val_main_v51_apply, val_main_v50_apply,
    val_main_cst_apply, val_main_cst_5_apply, val_main_cst_6_apply, val_main_cst_7_apply, val_main_cst_8_apply,
    e_col, e_col2, e_col3, e_vec, e_vec2, e_sum, e_sum2, e_rowg, e_rowb, e_g, e_b,
    Ideal.ofBits_def, Ideal.addf_def, Ideal.subf_def, Ideal.mulf_def, Ideal.hostDivf_def, Ideal.hostUnary_rsqrt_def,
    Ideal.ofBits_zero_f32, zero_add, gnRow, mean, vec, c128, epsv]

/-- The message: the normalised row clipped below at 0, times the last 128×128 weight. -/
theorem edge_out (x0 : (⟨S40000x128, .f32⟩ : BufTy).Contents (Elt Ideal)) (x2 : (⟨S40000x4, .f32⟩ : BufTy).Contents (Elt Ideal)) (x3 : (⟨S40000x4, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x19 : (⟨S640000, .i32⟩ : BufTy).Contents (Elt Ideal)) (x20 : (⟨S640000, .i32⟩ : BufTy).Contents (Elt Ideal)) (r : Fin 640000) (e : Fin 128) :
    val_main_v54 (F := Ideal) x0 x2 x3 x5 x6 x7 x8 x9 x10 x19 x20 (ix2 r e)
      = matvec (mat x10) (relu (fun f => val_main_v52 (F := Ideal) x0 x2 x3 x5 x6 x7 x8 x9 x19 x20 (ix2 r f))) e := by
  have e_l : ∀ (r : Fin 640000) (e k : Fin 128), lidx_main_v54 (ix2 r e) k = ix2 r k := fun r e k => funext fun a => Fin.ext (by match a with | ⟨0, _⟩ => rfl | ⟨1, _⟩ => rfl)
  have e_r : ∀ (r : Fin 640000) (e k : Fin 128), ridx_main_v54 (ix2 r e) k = ix2 k e := fun r e k => funext fun a => Fin.ext (by match a with | ⟨0, _⟩ => rfl | ⟨1, _⟩ => rfl)
  simp only [val_main_v54_apply, val_main_v53_apply, val_main_call1_v0_apply, val_main_call1_cst_apply, e_l, e_r,
    Ideal.ofBits_def, Ideal.maximumf_def, Ideal.ofBits_zero_f32, relu, matvec, mat]

/-- Every edge's message, as the reference computes it, is `edgeRow` of the edge's gathered features and relative pose. -/
theorem ctx_eq (x0 : (⟨S40000x128, .f32⟩ : BufTy).Contents (Elt Ideal)) (x2 : (⟨S40000x4, .f32⟩ : BufTy).Contents (Elt Ideal)) (x3 : (⟨S40000x4, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x19 : (⟨S640000, .i32⟩ : BufTy).Contents (Elt Ideal)) (x20 : (⟨S640000, .i32⟩ : BufTy).Contents (Elt Ideal)) :
    val_main_v54 (F := Ideal) x0 x2 x3 x5 x6 x7 x8 x9 x10 x19 x20
      = edgeArr (val_main_v26 (F := Ideal) x0 x19) (val_main_v14 (F := Ideal) x2 x3 x19 x20) x5 x6 x7 x8 x9 x10 := by
  funext j
  obtain ⟨r, e, rfl⟩ : ∃ (r : Fin 640000) (e : Fin 128), j = ix2 r e := ⟨j 0, j 1, eq_ix2 j⟩
  have h52 : (fun f => val_main_v52 (F := Ideal) x0 x2 x3 x5 x6 x7 x8 x9 x19 x20 (ix2 r f))
      = gnRow (fun f => val_main_v28 (F := Ideal) x0 x2 x3 x5 x6 x7 x19 x20 (ix2 r f)) (vec x8) (vec x9) :=
    funext fun f => edge_norm x0 x2 x3 x5 x6 x7 x8 x9 x19 x20 r f
  have h28 : (fun f => val_main_v28 (F := Ideal) x0 x2 x3 x5 x6 x7 x19 x20 (ix2 r f))
      = fun f => matvec (upper x7) (row (val_main_v26 (F := Ideal) x0 x19) r) f
          + matvec (lower x7) (fun f' => val_main_v19 (F := Ideal) x2 x3 x5 x6 x19 x20 (ix2 r f')) f :=
    funext fun f => edge_mm x0 x2 x3 x5 x6 x7 x19 x20 r f
  have h19 : (fun f => val_main_v19 (F := Ideal) x2 x3 x5 x6 x19 x20 (ix2 r f))
      = relu (fun e' => matvec (mat x5) (row (val_main_v14 (F := Ideal) x2 x3 x19 x20) r) e' + vec x6 e') :=
    funext fun f => edge_pose x2 x3 x5 x6 x19 x20 r f
  rw [edge_out, h52, h28, h19]
  rfl

end Cert.RefValue

end
-- ==== Proof.RefNode.lean ====
/-
  The reference's per-node update, read entry by entry, is the row function `nodeRow`.

  Seven stages, each read at row `r`, column `e` with the stage's input kept as it is: the input (a 128-term product
  plus the aggregated messages, which stay an unopened array), three normalisations (mean and variance of a row are
  sums of 128 terms divided by 128), two hidden layers (a clip at 0, then a 128-term product), and the residual sum
  with the last clip.  Every stage is the same sums and products on both sides; nothing is regrouped.
-/
import proofs.«157215_j79577154060436_2_alg».proof.Proof.Spec
import proofs.«157215_j79577154060436_2_alg».proof.Proof.RefRead

noncomputable section

open scoped BigOperators

namespace Cert.RefValue

open Cert.ReferenceIdeal Cert.ReferenceIdeal.Gen Cert.ReferenceIdeal.ReadP Cert.Spec
open Idealize.ShloMosaic Idealize.ShloMosaic.TcCoe Idealize.SL.Sem Idealize.ShloMosaic.StableHlo Idealize.ShloMosaic.ValueIdx

/-- The layer's input: the node's features through the first 128×128 weight, plus the aggregated messages. -/
theorem node_in (x0 : (⟨S40000x128, .f32⟩ : BufTy).Contents (Elt Ideal)) (x1 : (⟨S40000x128, .f32⟩ : BufTy).Contents (Elt Ideal)) (x2 : (⟨S40000x4, .f32⟩ : BufTy).Contents (Elt Ideal)) (x3 : (⟨S40000x4, .f32⟩ : BufTy).Contents (Elt Ideal)) (x4 : (⟨S128x128, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x19 : (⟨S640000, .i32⟩ : BufTy).Contents (Elt Ideal)) (x20 : (⟨S640000, .i32⟩ : BufTy).Contents (Elt Ideal)) (r : Fin 40000) (e : Fin 128) :
    val_main_v59 (F := Ideal) x0 x1 x2 x3 x4 x5 x6 x7 x8 x9 x10 x19 x20 (ix2 r e)
      = matvec (mat x4) (row x1 r) e + row (val_main_v58 (F := Ideal) x0 x2 x3 x5 x6 x7 x8 x9 x10 x19 x20) r e := by
  have e_l : ∀ (r : Fin 40000) (e k : Fin 128), lidx_main_v55 (ix2 r e) k = ix2 r k := fun r e k => funext fun a => Fin.ext (by match a with | ⟨0, _⟩ => rfl | ⟨1, _⟩ => rfl)
  have e_r : ∀ (r : Fin 40000) (e k : Fin 128), ridx_main_v55 (ix2 r e) k = ix2 k e := fun r e k => funext fun a => Fin.ext (by match a with | ⟨0, _⟩ => rfl | ⟨1, _⟩ => rfl)
  simp only [val_main_v59_apply, val_main_v55_apply, e_l, e_r, Ideal.addf_def, matvec, mat, row]

/-- The normalisation block on the 40000 rows: the entry in row `r`, column `e` is the normalised row of the block's
    input, scaled and shifted.  The two sums start from the zero word, the divisor is the word of 128, the constant
    added to the variance is the programs' small constant. -/
theorem node_norm1 (x0 : (⟨S40000x128, .f32⟩ : BufTy).Contents (Elt Ideal)) (x1 : (⟨S40000x128, .f32⟩ : BufTy).Contents (Elt Ideal)) (x2 : (⟨S40000x4, .f32⟩ : BufTy).Contents (Elt Ideal)) (x3 : (⟨S40000x4, .f32⟩ : BufTy).Contents (Elt Ideal)) (x4 : (⟨S128x128, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x19 : (⟨S640000, .i32⟩ : BufTy).Contents (Elt Ideal)) (x20 : (⟨S640000, .i32⟩ : BufTy).Contents (Elt Ideal)) (r : Fin 40000) (e : Fin 128) :
    val_main_v83 (F := Ideal) x0 x1 x2 x3 x4 x5 x6 x7 x8 x9 x10 x11 x12 x19 x20 (ix2 r e)
      = gnRow (fun f => val_main_v59 (F := Ideal) x0 x1 x2 x3 x4 x5 x6 x7 x8 x9 x10 x19 x20 (ix2 r f)) (vec x11) (vec x12) e := by
  have e_col : ∀ (r : Fin 40000) (e : Fin 128), idx_main_v64 (ix2 r e) = ix2 r (⟨0, Nat.one_pos⟩ : Fin 1) := fun r e => funext fun a => Fin.ext (by match a with | ⟨0, _⟩ => rfl | ⟨1, _⟩ => rfl)
  have e_col2 : ∀ (r : Fin 40000) (e : Fin 128), idx_main_v71 (ix2 r e) = ix2 r (⟨0, Nat.one_pos⟩ : Fin 1) := fun r e => funext fun a => Fin.ext (by match a with | ⟨0, _⟩ => rfl | ⟨1, _⟩ => rfl)
  have e_col3 : ∀ (r : Fin 40000) (e : Fin 128), idx_main_v76 (ix2 r e) = ix2 r (⟨0, Nat.one_pos⟩ : Fin 1) := fun r e => funext fun a => Fin.ext (by match a with | ⟨0, _⟩ => rfl | ⟨1, _⟩ => rfl)
  have e_vec : ∀ (r : Fin 40000) (z : Fin 1), idx_main_v61 (ix2 r z) = ix1 r := fun r z => funext fun a => Fin.ext (by match a with | ⟨0, _⟩ => rfl)
  have e_vec2 : ∀ (r : Fin 40000) (z : Fin 1), idx_main_v68 (ix2 r z) = ix1 r := fun r z => funext fun a => Fin.ext (by match a with | ⟨0, _⟩ => rfl)
  have e_sum : ∀ (r : Fin 40000) (k : Fin 128), idx_main_v60 (ix1 r) k = ix2 r k := fun r k => funext fun a => Fin.ext (by match a with | ⟨0, _⟩ => rfl | ⟨1, _⟩ => rfl)
  have e_sum2 : ∀ (r : Fin 40000) (k : Fin 128), idx_main_v67 (ix1 r) k = ix2 r k := fun r k => funext fun a => Fin.ext (by match a with | ⟨0, _⟩ => rfl | ⟨1, _⟩ => rfl)
  have e_rowg : ∀ (r : Fin 40000) (e : Fin 128), idx_main_v79 (ix2 r e) = ix2 (⟨0, Nat.one_pos⟩ : Fin 1) e := fun r e => funext fun a => Fin.ext (by match a with | ⟨0, _⟩ => rfl | ⟨1, _⟩ => rfl)
  have e_rowb : ∀ (r : Fin 40000) (e : Fin 128), idx_main_v82 (ix2 r e) = ix2 (⟨0, Nat.one_pos⟩ : Fin 1) e := fun r e => funext fun a => Fin.ext (by match a with | ⟨0, _⟩ => rfl | ⟨1, _⟩ => rfl)
  have e_g : ∀ (z : Fin 1) (e : Fin 128), idx_main_v78 (ix2 z e) = ix1 e := fun z e => funext fun a => Fin.ext (by match a with | ⟨0, _⟩ => rfl)
  have e_b : ∀ (z : Fin 1) (e : Fin 128), idx_main_v81 (ix2 z e) = ix1 e := fun z e => funext fun a => Fin.ext (by match a with | ⟨0, _⟩ => rfl)
  simp only [val_main_v83_apply, val_main_v80_apply, val_main_v77_apply, val_main_v72_apply, val_main_v76_apply, val_main_v75_apply, val_main_v74_apply, val_main_v70_apply, val_main_v68_apply, val_main_v67_apply, val_main_v66_apply, val_main_v65_apply, val_main_v64_apply, val_main_v63_apply, val_main_v61_apply, val_main_v60_apply, val_main_v62_apply, val_main_v69_apply, val_main_v71_apply, val_main_v73_apply, val_main_v79_apply, val_main_v78_apply, val_main_v82_apply, val_main_v81_apply,
    val_main_cst_10_apply, val_main_cst_11_apply, val_main_cst_12_apply, val_main_cst_13_apply, val_main_cst_14_apply,
    e_col, e_col2, e_col3, e_vec, e_vec2, e_sum, e_sum2, e_rowg, e_rowb, e_g, e_b,
    Ideal.ofBits_def, Ideal.addf_def, Ideal.subf_def, Ideal.mulf_def, Ideal.hostDivf_def, Ideal.hostUnary_rsqrt_def,
    Ideal.ofBits_zero_f32, zero_add, gnRow, mean, vec, c128, epsv]

/-- The first hidden layer: the normalised input clipped below at 0, times the second 128×128 weight. -/
theorem node_mm1 (x0 : (⟨S40000x128, .f32⟩ : BufTy).Contents (Elt Ideal)) (x1 : (⟨S40000x128, .f32⟩ : BufTy).Contents (Elt Ideal)) (x2 : (⟨S40000x4, .f32⟩ : BufTy).Contents (Elt Ideal)) (x3 : (⟨S40000x4, .f32⟩ : BufTy).Contents (Elt Ideal)) (x4 : (⟨S128x128, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x19 : (⟨S640000, .i32⟩ : BufTy).Contents (Elt Ideal)) (x20 : (⟨S640000, .i32⟩ : BufTy).Contents (Elt Ideal)) (r : Fin 40000) (e : Fin 128) :
    val_main_v85 (F := Ideal) x0 x1 x2 x3 x4 x5 x6 x7 x8 x9 x10 x11 x12 x13 x19 x20 (ix2 r e)
      = matvec (mat x13) (relu (fun f => val_main_v83 (F := Ideal) x0 x1 x2 x3 x4 x5 x6 x7 x8 x9 x10 x11 x12 x19 x20 (ix2 r f))) e := by
  have e_l : ∀ (r : Fin 40000) (e k : Fin 128), lidx_main_v85 (ix2 r e) k = ix2 r k := fun r e k => funext fun a => Fin.ext (by match a with | ⟨0, _⟩ => rfl | ⟨1, _⟩ => rfl)
  have e_r : ∀ (r : Fin 40000) (e k : Fin 128), ridx_main_v85 (ix2 r e) k = ix2 k e := fun r e k => funext fun a => Fin.ext (by match a with | ⟨0, _⟩ => rfl | ⟨1, _⟩ => rfl)
  simp only [val_main_v85_apply, val_main_v84_apply, val_main_call2_v0_apply, val_main_call2_cst_apply, e_l, e_r,
    Ideal.ofBits_def, Ideal.maximumf_def, Ideal.ofBits_zero_f32, relu, matvec, mat]

/-- The normalisation block on the 40000 rows: the entry in row `r`, column `e` is the normalised row of the block's
    input, scaled and shifted.  The two sums start from the zero word, the divisor is the word of 128, the constant
    added to the variance is the programs' small constant. -/
theorem node_norm2 (x0 : (⟨S40000x128, .f32⟩ : BufTy).Contents (Elt Ideal)) (x1 : (⟨S40000x128, .f32⟩ : BufTy).Contents (Elt Ideal)) (x2 : (⟨S40000x4, .f32⟩ : BufTy).Contents (Elt Ideal)) (x3 : (⟨S40000x4, .f32⟩ : BufTy).Contents (Elt Ideal)) (x4 : (⟨S128x128, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x19 : (⟨S640000, .i32⟩ : BufTy).Contents (Elt Ideal)) (x20 : (⟨S640000, .i32⟩ : BufTy).Contents (Elt Ideal)) (r : Fin 40000) (e : Fin 128) :
    val_main_v109 (F := Ideal) x0 x1 x2 x3 x4 x5 x6 x7 x8 x9 x10 x11 x12 x13 x14 x15 x19 x20 (ix2 r e)
      = gnRow (fun f => val_main_v85 (F := Ideal) x0 x1 x2 x3 x4 x5 x6 x7 x8 x9 x10 x11 x12 x13 x19 x20 (ix2 r f)) (vec x14) (vec x15) e := by
  have e_col : ∀ (r : Fin 40000) (e : Fin 128), idx_main_v90 (ix2 r e) = ix2 r (⟨0, Nat.one_pos⟩ : Fin 1) := fun r e => funext fun a => Fin.ext (by match a with | ⟨0, _⟩ => rfl | ⟨1, _⟩ => rfl)
  have e_col2 : ∀ (r : Fin 40000) (e : Fin 128), idx_main_v97 (ix2 r e) = ix2 r (⟨0, Nat.one_pos⟩ : Fin 1) := fun r e => funext fun a => Fin.ext (by match a with | ⟨0, _⟩ => rfl | ⟨1, _⟩ => rfl)
  have e_col3 : ∀ (r : Fin 40000) (e : Fin 128), idx_main_v102 (ix2 r e) = ix2 r (⟨0, Nat.one_pos⟩ : Fin 1) := fun r e => funext fun a => Fin.ext (by match a with | ⟨0, _⟩ => rfl | ⟨1, _⟩ => rfl)
  have e_vec : ∀ (r : Fin 40000) (z : Fin 1), idx_main_v87 (ix2 r z) = ix1 r := fun r z => funext fun a => Fin.ext (by match a with | ⟨0, _⟩ => rfl)
  have e_vec2 : ∀ (r : Fin 40000) (z : Fin 1), idx_main_v94 (ix2 r z) = ix1 r := fun r z => funext fun a => Fin.ext (by match a with | ⟨0, _⟩ => rfl)
  have e_sum : ∀ (r : Fin 40000) (k : Fin 128), idx_main_v86 (ix1 r) k = ix2 r k := fun r k => funext fun a => Fin.ext (by match a with | ⟨0, _⟩ => rfl | ⟨1, _⟩ => rfl)
  have e_sum2 : ∀ (r : Fin 40000) (k : Fin 128), idx_main_v93 (ix1 r) k = ix2 r k := fun r k => funext fun a => Fin.ext (by match a with | ⟨0, _⟩ => rfl | ⟨1, _⟩ => rfl)
  have e_rowg : ∀ (r : Fin 40000) (e : Fin 128), idx_main_v105 (ix2 r e) = ix2 (⟨0, Nat.one_pos⟩ : Fin 1) e := fun r e => funext fun a => Fin.ext (by match a with | ⟨0, _⟩ => rfl | ⟨1, _⟩ => rfl)
  have e_rowb : ∀ (r : Fin 40000) (e : Fin 128), idx_main_v108 (ix2 r e) = ix2 (⟨0, Nat.one_pos⟩ : Fin 1) e := fun r e => funext fun a => Fin.ext (by match a with | ⟨0, _⟩ => rfl | ⟨1, _⟩ => rfl)
  have e_g : ∀ (z : Fin 1) (e : Fin 128), idx_main_v104 (ix2 z e) = ix1 e := fun z e => funext fun a => Fin.ext (by match a with | ⟨0, _⟩ => rfl)
  have e_b : ∀ (z : Fin 1) (e : Fin 128), idx_main_v107 (ix2 z e) = ix1 e := fun z e => funext fun a => Fin.ext (by match a with | ⟨0, _⟩ => rfl)
  simp only [val_main_v109_apply, val_main_v106_apply, val_main_v103_apply, val_main_v98_apply, val_main_v102_apply, val_main_v101_apply, val_main_v100_apply, val_main_v96_apply, val_main_v94_apply, val_main_v93_apply, val_main_v92_apply, val_main_v91_apply, val_main_v90_apply, val_main_v89_apply, val_main_v87_apply, val_main_v86_apply, val_main_v88_apply, val_main_v95_apply, val_main_v97_apply, val_main_v99_apply, val_main_v105_apply, val_main_v104_apply, val_main_v108_apply, val_main_v107_apply,
    val_main_cst_15_apply, val_main_cst_16_apply, val_main_cst_17_apply, val_main_cst_18_apply, val_main_cst_19_apply,
    e_col, e_col2, e_col3, e_vec, e_vec2, e_sum, e_sum2, e_rowg, e_rowb, e_g, e_b,
    Ideal.ofBits_def, Ideal.addf_def, Ideal.subf_def, Ideal.mulf_def, Ideal.hostDivf_def, Ideal.hostUnary_rsqrt_def,
    Ideal.ofBits_zero_f32, zero_add, gnRow, mean, vec, c128, epsv]

/-- The second hidden layer: the normalised first layer clipped below at 0, times the third 128×128 weight. -/
theorem node_mm2 (x0 : (⟨S40000x128, .f32⟩ : BufTy).Contents (Elt Ideal)) (x1 : (⟨S40000x128, .f32⟩ : BufTy).Contents (Elt Ideal)) (x2 : (⟨S40000x4, .f32⟩ : BufTy).Contents (Elt Ideal)) (x3 : (⟨S40000x4, .f32⟩ : BufTy).Contents (Elt Ideal)) (x4 : (⟨S128x128, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x19 : (⟨S640000, .i32⟩ : BufTy).Contents (Elt Ideal)) (x20 : (⟨S640000, .i32⟩ : BufTy).Contents (Elt Ideal)) (r : Fin 40000) (e : Fin 128) :
    val_main_v111 (F := Ideal) x0 x1 x2 x3 x4 x5 x6 x7 x8 x9 x10 x11 x12 x13 x14 x15 x16 x19 x20 (ix2 r e)
      = matvec (mat x16) (relu (fun f => val_main_v109 (F := Ideal) x0 x1 x2 x3 x4 x5 x6 x7 x8 x9 x10 x11 x12 x13 x14 x15 x19 x20 (ix2 r f))) e := by
  have e_l : ∀ (r : Fin 40000) (e k : Fin 128), lidx_main_v111 (ix2 r e) k = ix2 r k := fun r e k => funext fun a => Fin.ext (by match a with | ⟨0, _⟩ => rfl | ⟨1, _⟩ => rfl)
  have e_r : ∀ (r : Fin 40000) (e k : Fin 128), ridx_main_v111 (ix2 r e) k = ix2 k e := fun r e k => funext fun a => Fin.ext (by match a with | ⟨0, _⟩ => rfl | ⟨1, _⟩ => rfl)
  simp only [val_main_v111_apply, val_main_v110_apply, val_main_call3_v0_apply, val_main_call3_cst_apply, e_l, e_r,
    Ideal.ofBits_def, Ideal.maximumf_def, Ideal.ofBits_zero_f32, relu, matvec, mat]

/-- The normalisation block on the 40000 rows: the entry in row `r`, column `e` is the normalised row of the block's
    input, scaled and shifted.  The two sums start from the zero word, the divisor is the word of 128, the constant
    added to the variance is the programs' small constant. -/
theorem node_norm3 (x0 : (⟨S40000x128, .f32⟩ : BufTy).Contents (Elt Ideal)) (x1 : (⟨S40000x128, .f32⟩ : BufTy).Contents (Elt Ideal)) (x2 : (⟨S40000x4, .f32⟩ : BufTy).Contents (Elt Ideal)) (x3 : (⟨S40000x4, .f32⟩ : BufTy).Contents (Elt Ideal)) (x4 : (⟨S128x128, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S640000, .i32⟩ : BufTy).Contents (Elt Ideal)) (x20 : (⟨S640000, .i32⟩ : BufTy).Contents (Elt Ideal)) (r : Fin 40000) (e : Fin 128) :
    val_main_v135 (F := Ideal) x0 x1 x2 x3 x4 x5 x6 x7 x8 x9 x10 x11 x12 x13 x14 x15 x16 x17 x18 x19 x20 (ix2 r e)
      = gnRow (fun f => val_main_v111 (F := Ideal) x0 x1 x2 x3 x4 x5 x6 x7 x8 x9 x10 x11 x12 x13 x14 x15 x16 x19 x20 (ix2 r f)) (vec x17) (vec x18) e := by
  have e_col : ∀ (r : Fin 40000) (e : Fin 128), idx_main_v116 (ix2 r e) = ix2 r (⟨0, Nat.one_pos⟩ : Fin 1) := fun r e => funext fun a => Fin.ext (by match a with | ⟨0, _⟩ => rfl | ⟨1, _⟩ => rfl)
  have e_col2 : ∀ (r : Fin 40000) (e : Fin 128), idx_main_v123 (ix2 r e) = ix2 r (⟨0, Nat.one_pos⟩ : Fin 1) := fun r e => funext fun a => Fin.ext (by match a with | ⟨0, _⟩ => rfl | ⟨1, _⟩ => rfl)
  have e_col3 : ∀ (r : Fin 40000) (e : Fin 128), idx_main_v128 (ix2 r e) = ix2 r (⟨0, Nat.one_pos⟩ : Fin 1) := fun r e => funext fun a => Fin.ext (by match a with | ⟨0, _⟩ => rfl | ⟨1, _⟩ => rfl)
  have e_vec : ∀ (r : Fin 40000) (z : Fin 1), idx_main_v113 (ix2 r z) = ix1 r := fun r z => funext fun a => Fin.ext (by match a with | ⟨0, _⟩ => rfl)
  have e_vec2 : ∀ (r : Fin 40000) (z : Fin 1), idx_main_v120 (ix2 r z) = ix1 r := fun r z => funext fun a => Fin.ext (by match a with | ⟨0, _⟩ => rfl)
  have e_sum : ∀ (r : Fin 40000) (k : Fin 128), idx_main_v112 (ix1 r) k = ix2 r k := fun r k => funext fun a => Fin.ext (by match a with | ⟨0, _⟩ => rfl | ⟨1, _⟩ => rfl)
  have e_sum2 : ∀ (r : Fin 40000) (k : Fin 128), idx_main_v119 (ix1 r) k = ix2 r k := fun r k => funext fun a => Fin.ext (by match a with | ⟨0, _⟩ => rfl | ⟨1, _⟩ => rfl)
  have e_rowg : ∀ (r : Fin 40000) (e : Fin 128), idx_main_v131 (ix2 r e) = ix2 (⟨0, Nat.one_pos⟩ : Fin 1) e := fun r e => funext fun a => Fin.ext (by match a with | ⟨0, _⟩ => rfl | ⟨1, _⟩ => rfl)
  have e_rowb : ∀ (r : Fin 40000) (e : Fin 128), idx_main_v134 (ix2 r e) = ix2 (⟨0, Nat.one_pos⟩ : Fin 1) e := fun r e => funext fun a => Fin.ext (by match a with | ⟨0, _⟩ => rfl | ⟨1, _⟩ => rfl)
  have e_g : ∀ (z : Fin 1) (e : Fin 128), idx_main_v130 (ix2 z e) = ix1 e := fun z e => funext fun a => Fin.ext (by match a with | ⟨0, _⟩ => rfl)
  have e_b : ∀ (z : Fin 1) (e : Fin 128), idx_main_v133 (ix2 z e) = ix1 e := fun z e => funext fun a => Fin.ext (by match a with | ⟨0, _⟩ => rfl)
  simp only [val_main_v135_apply, val_main_v132_apply, val_main_v129_apply, val_main_v124_apply, val_main_v128_apply, val_main_v127_apply, val_main_v126_apply, val_main_v122_apply, val_main_v120_apply, val_main_v119_apply, val_main_v118_apply, val_main_v117_apply, val_main_v116_apply, val_main_v115_apply, val_main_v113_apply, val_main_v112_apply, val_main_v114_apply, val_main_v121_apply, val_main_v123_apply, val_main_v125_apply, val_main_v131_apply, val_main_v130_apply, val_main_v134_apply, val_main_v133_apply,
    val_main_cst_20_apply, val_main_cst_21_apply, val_main_cst_22_apply, val_main_cst_23_apply, val_main_cst_24_apply,
    e_col, e_col2, e_col3, e_vec, e_vec2, e_sum, e_sum2, e_rowg, e_rowb, e_g, e_b,
    Ideal.ofBits_def, Ideal.addf_def, Ideal.subf_def, Ideal.mulf_def, Ideal.hostDivf_def, Ideal.hostUnary_rsqrt_def,
    Ideal.ofBits_zero_f32, zero_add, gnRow, mean, vec, c128, epsv]

/-- The residual connection and the last clip: the third normalised layer plus the node's own features, clipped below at 0. -/
theorem node_out (x0 : (⟨S40000x128, .f32⟩ : BufTy).Contents (Elt Ideal)) (x1 : (⟨S40000x128, .f32⟩ : BufTy).Contents (Elt Ideal)) (x2 : (⟨S40000x4, .f32⟩ : BufTy).Contents (Elt Ideal)) (x3 : (⟨S40000x4, .f32⟩ : BufTy).Contents (Elt Ideal)) (x4 : (⟨S128x128, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S640000, .i32⟩ : BufTy).Contents (Elt Ideal)) (x20 : (⟨S640000, .i32⟩ : BufTy).Contents (Elt Ideal)) (r : Fin 40000) (e : Fin 128) :
    val_main_v137 (F := Ideal) x0 x1 x2 x3 x4 x5 x6 x7 x8 x9 x10 x11 x12 x13 x14 x15 x16 x17 x18 x19 x20 (ix2 r e)
      = relu (fun f => val_main_v135 (F := Ideal) x0 x1 x2 x3 x4 x5 x6 x7 x8 x9 x10 x11 x12 x13 x14 x15 x16 x17 x18 x19 x20 (ix2 r f) + row x1 r f) e := by
  simp only [val_main_v137_apply, val_main_v136_apply, val_main_call4_v0_apply, val_main_call4_cst_apply,
    Ideal.ofBits_def, Ideal.addf_def, Ideal.maximumf_def, Ideal.ofBits_zero_f32, relu, row]

/-- Every node's new features, as the reference computes them, are `nodeRow` of the node's old features and the sum of the
    messages sent to it (the scatter's result, kept as it is). -/
theorem out_eq (x0 : (⟨S40000x128, .f32⟩ : BufTy).Contents (Elt Ideal)) (x1 : (⟨S40000x128, .f32⟩ : BufTy).Contents (Elt Ideal)) (x2 : (⟨S40000x4, .f32⟩ : BufTy).Contents (Elt Ideal)) (x3 : (⟨S40000x4, .f32⟩ : BufTy).Contents (Elt Ideal)) (x4 : (⟨S128x128, .f32⟩ : BufTy).Contents (Elt Ideal)) (x5 : (⟨S4x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128, .f32⟩ : BufTy).Contents (Elt Ideal)) (x19 : (⟨S640000, .i32⟩ : BufTy).Contents (Elt Ideal)) (x20 : (⟨S640000, .i32⟩ : BufTy).Contents (Elt Ideal)) :
    val_main_v137 (F := Ideal) x0 x1 x2 x3 x4 x5 x6 x7 x8 x9 x10 x11 x12 x13 x14 x15 x16 x17 x18 x19 x20
      = nodeArr x1 (val_main_v58 (F := Ideal) x0 x2 x3 x5 x6 x7 x8 x9 x10 x19 x20) x4 x11 x12 x13 x14 x15 x16 x17 x18 := by
  funext j
  obtain ⟨r, e, rfl⟩ : ∃ (r : Fin 40000) (e : Fin 128), j = ix2 r e := ⟨j 0, j 1, eq_ix2 j⟩
  have h111 : (fun f => val_main_v111 (F := Ideal) x0 x1 x2 x3 x4 x5 x6 x7 x8 x9 x10 x11 x12 x13 x14 x15 x16 x19 x20 (ix2 r f))
      = matvec (mat x16) (relu (fun f => val_main_v109 (F := Ideal) x0 x1 x2 x3 x4 x5 x6 x7 x8 x9 x10 x11 x12 x13 x14 x15 x19 x20 (ix2 r f))) :=
    funext fun f => node_mm2 x0 x1 x2 x3 x4 x5 x6 x7 x8 x9 x10 x11 x12 x13 x14 x15 x16 x19 x20 r f
  have h109 : (fun f => val_main_v109 (F := Ideal) x0 x1 x2 x3 x4 x5 x6 x7 x8 x9 x10 x11 x12 x13 x14 x15 x19 x20 (ix2 r f))
      = gnRow (fun f => val_main_v85 (F := Ideal) x0 x1 x2 x3 x4 x5 x6 x7 x8 x9 x10 x11 x12 x13 x19 x20 (ix2 r f)) (vec x14) (vec x15) :=
    funext fun f => node_norm2 x0 x1 x2 x3 x4 x5 x6 x7 x8 x9 x10 x11 x12 x13 x14 x15 x19 x20 r f
  have h85 : (fun f => val_main_v85 (F := Ideal) x0 x1 x2 x3 x4 x5 x6 x7 x8 x9 x10 x11 x12 x13 x19 x20 (ix2 r f))
      = matvec (mat x13) (relu (fun f => val_main_v83 (F := Ideal) x0 x1 x2 x3 x4 x5 x6 x7 x8 x9 x10 x11 x12 x19 x20 (ix2 r f))) :=
    funext fun f => node_mm1 x0 x1 x2 x3 x4 x5 x6 x7 x8 x9 x10 x11 x12 x13 x19 x20 r f
  have h83 : (fun f => val_main_v83 (F := Ideal) x0 x1 x2 x3 x4 x5 x6 x7 x8 x9 x10 x11 x12 x19 x20 (ix2 r f))
      = gnRow (fun f => val_main_v59 (F := Ideal) x0 x1 x2 x3 x4 x5 x6 x7 x8 x9 x10 x19 x20 (ix2 r f)) (vec x11) (vec x12) :=
    funext fun f => node_norm1 x0 x1 x2 x3 x4 x5 x6 x7 x8 x9 x10 x11 x12 x19 x20 r f
  have h59 : (fun f => val_main_v59 (F := Ideal) x0 x1 x2 x3 x4 x5 x6 x7 x8 x9 x10 x19 x20 (ix2 r f))
      = fun f => matvec (mat x4) (row x1 r) f + row (val_main_v58 (F := Ideal) x0 x2 x3 x5 x6 x7 x8 x9 x10 x19 x20) r f :=
    funext fun f => node_in x0 x1 x2 x3 x4 x5 x6 x7 x8 x9 x10 x19 x20 r f
  rw [node_out]
  simp only [node_norm3]
  rw [h111, h109, h85, h83, h59]
  rfl

end Cert.RefValue

end
-- ==== Proof.Bridge.lean ====
/-
  The idealised kernel program's result is the reference's last stage of the same arguments.

  Through @main the buffer contents are folded segment by segment.  Before the first region the host operations gather
  the source features and the two poses by the edges' indices, subtract the poses and cut the first weight into its
  upper and lower half: the same gathers, on the same index columns, that the reference's first stages apply (a change
  of float format is the identity on the extended reals), and the two halves are the rows `k` and `128 + k` of the
  weight.  So the first region's output — every edge's message of those arrays — is the reference's message array.
  Between the regions the messages are summed into their target nodes by the same scatter on the same indices, and the
  second region's output — every node's update of its features and that sum — is the reference's last stage.
-/
import proofs.«157215_j79577154060436_2_alg».proof.Proof.EdgeArr
import proofs.«157215_j79577154060436_2_alg».proof.Proof.NodeArr
import proofs.«157215_j79577154060436_2_alg».proof.Proof.RefEdge
import proofs.«157215_j79577154060436_2_alg».proof.Proof.RefNode
import Idealize.ShloMosaic.Lib.StableHlo.Run
import Idealize.ShloMosaic.Lib.ValueLayout

set_option maxRecDepth 16384

noncomputable section

open scoped BigOperators

namespace Cert.Bridge

open Cert.KernelIdeal Cert.KernelIdeal.Gen Idealize.ShloMosaic Idealize.ShloMosaic.TcCoe Idealize.ShloMosaic.ValueIdx
open Cert.Spec Cert.KVec Idealize.SL.Sem Idealize.ShloMosaic.StableHlo
open Cert.ReferenceIdeal.ReadP (val_main_v26 val_main_v14 val_main_v54 val_main_v58 val_main_v137)

variable (m : (ℓ : Loc nD τ sig) → Buf (Elt Ideal) ℓ) (ρ : Dev nD → PrngReg)

/-- The argument arrays as launched, on core `c`. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)
abbrev a14 (c : Dev nD) := m ((c : Thread nD τ).loc main_arg14)
abbrev a15 (c : Dev nD) := m ((c : Thread nD τ).loc main_arg15)
abbrev a16 (c : Dev nD) := m ((c : Thread nD τ).loc main_arg16)
abbrev a17 (c : Dev nD) := m ((c : Thread nD τ).loc main_arg17)
abbrev a18 (c : Dev nD) := m ((c : Thread nD τ).loc main_arg18)
abbrev a19 (c : Dev nD) := m ((c : Thread nD τ).loc main_arg19)
abbrev a20 (c : Dev nD) := m ((c : Thread nD τ).loc main_arg20)

/-! ## The first region's entry contents -/

theorem V1_v7 (c : Dev nD) : V1 m ρ c main_v7 = val_main_v26 (F := Ideal) (a0 m c) (a19 m c) := by
  show StableHlo.after hostOps0 (W0 m ρ c) (Proc.devRef .tc main_v7) = _
  after_results_simp
  unfold Cert.ReferenceIdeal.ReadP.val_main_v26
  have e2 : (broadcastInDim S640000x1 ![0] bcast_S640000_S640000x1_0
        (select
          (cmpi CmpIPredicate.slt (W0 m ρ c (Proc.devRef .tc main_arg19))
            (broadcastInDim S640000 ![] bcast_S_S640000 (constantI S_ 32 0#32)))
          (addi (W0 m ρ c (Proc.devRef .tc main_arg19))
            (broadcastInDim S640000 ![] bcast_S_S640000 (constantI S_ 32 40000#32)))
          (W0 m ρ c (Proc.devRef .tc main_arg19)))) = Cert.ReferenceIdeal.ReadP.val_main_v25 (F := Ideal) (a19 m c) := rfl
  rw [e2]
  rfl

theorem V1_v22 (c : Dev nD) : V1 m ρ c main_v22 = val_main_v14 (F := Ideal) (a2 m c) (a3 m c) (a19 m c) (a20 m c) := by
  show StableHlo.after hostOps0 (W0 m ρ c) (Proc.devRef .tc main_v22) = _
  after_results_simp <;> rfl

theorem V1_v23 (c : Dev nD) : V1 m ρ c main_v23
    = extractStridedSlice S128x128 ![0, 0] (a7 m c) slices_S256x128_S128x128_0_0 := by
  show StableHlo.after hostOps0 (W0 m ρ c) (Proc.devRef .tc main_v23) = _
  after_results_simp <;> rfl

theorem V1_v24 (c : Dev nD) : V1 m ρ c main_v24
    = extractStridedSlice S128x128 ![128, 0] (a7 m c) slices_S256x128_S128x128_128_0 := by
  show StableHlo.after hostOps0 (W0 m ρ c) (Proc.devRef .tc main_v24) = _
  after_results_simp <;> rfl

theorem V1_arg5 (c : Dev nD) : V1 m ρ c main_arg5 = a5 m c := by
  show StableHlo.after hostOps0 (W0 m ρ c) (Proc.devRef .tc main_arg5) = _
  after_results_simp <;> rfl
theorem V1_arg6 (c : Dev nD) : V1 m ρ c main_arg6 = a6 m c := by
  show StableHlo.after hostOps0 (W0 m ρ c) (Proc.devRef .tc main_arg6) = _
  after_results_simp <;> rfl
theorem V1_arg8 (c : Dev nD) : V1 m ρ c main_arg8 = a8 m c := by
  show StableHlo.after hostOps0 (W0 m ρ c) (Proc.devRef .tc main_arg8) = _
  after_results_simp <;> rfl
theorem V1_arg9 (c : Dev nD) : V1 m ρ c main_arg9 = a9 m c := by
  show StableHlo.after hostOps0 (W0 m ρ c) (Proc.devRef .tc main_arg9) = _
  after_results_simp <;> rfl
theorem V1_arg10 (c : Dev nD) : V1 m ρ c main_arg10 = a10 m c := by
  show StableHlo.after hostOps0 (W0 m ρ c) (Proc.devRef .tc main_arg10) = _
  after_results_simp <;> rfl

/-- The upper half of the weight, cut out by the host, is its rows `k`; the lower half its rows `128 + k`. -/
theorem mat_upper (W : (Mat 256 128).Idx → EReal) (h : (Mat 256 128).Slices ![0, 0] (Mat 128 128)) :
    mat (extractStridedSlice (Mat 128 128) ![0, 0] W h) = upper W :=
  funext fun k => funext fun e => slice2_axis0_apply 0 W h k e ⟨k.val, by omega⟩ (by simp)

theorem mat_lower (W : (Mat 256 128).Idx → EReal) (h : (Mat 256 128).Slices ![128, 0] (Mat 128 128)) :
    mat (extractStridedSlice (Mat 128 128) ![128, 0] W h) = lower W :=
  funext fun k => funext fun e => slice2_axis0_apply 128 W h k e ⟨128 + k.val, by omega⟩ rfl

/-- The first region's output array is the reference's message array. -/
theorem edge_final (c : Dev nD) :
    (dat0 (F := Ideal) (V1 m ρ) c).arrAt 9 cfg0.N
      = val_main_v54 (F := Ideal) (a0 m c) (a2 m c) (a3 m c) (a5 m c) (a6 m c) (a7 m c) (a8 m c) (a9 m c) (a10 m c) (a19 m c) (a20 m c) := by
  rw [EdgeArr.final, Cert.RefValue.ctx_eq]
  unfold EdgeArr.G
  rw [V1_v7, V1_v22, V1_v23, V1_v24, V1_arg5, V1_arg6, V1_arg8, V1_arg9, V1_arg10]
  unfold edgeArrK edgeArr
  rw [mat_upper, mat_lower]

/-! ## The second region's entry contents -/

theorem W2_arg20 (c : Dev nD) : W2 m ρ c (Proc.devRef .tc main_arg20) = a20 m c := by
  rw [W2_of_ne m ρ c main_arg20 (by decide)]
  show StableHlo.after hostOps0 (W0 m ρ c) (Proc.devRef .tc main_arg20) = _
  after_results_simp <;> rfl

theorem V3_v29 (c : Dev nD) : V3 m ρ c main_v29
    = val_main_v58 (F := Ideal) (a0 m c) (a2 m c) (a3 m c) (a5 m c) (a6 m c) (a7 m c) (a8 m c) (a9 m c) (a10 m c) (a19 m c) (a20 m c) := by
  show StableHlo.after hostOps1 (W2 m ρ c) (Proc.devRef .tc main_v29) = _
  after_results_simp
  have h25 : W2 m ρ c (Proc.devRef .tc main_v25) = (dat0 (F := Ideal) (V1 m ρ) c).arrAt 9 cfg0.N := W2_arr m ρ c 9
  rw [W2_arg20, h25, edge_final]
  rfl

theorem V3_arg1 (c : Dev nD) : V3 m ρ c main_arg1 = a1 m c :=
  ((W4_arr m ρ c 0).trans (((dat1 (V3 m ρ) c).arrAt_in 0 rfl _).trans (A_eq1 (V3 m ρ) c 0))).symm.trans
    (W4_main_arg1 m ρ c)
theorem V3_arg4 (c : Dev nD) : V3 m ρ c main_arg4 = a4 m c :=
  ((W4_arr m ρ c 2).trans (((dat1 (V3 m ρ) c).arrAt_in 2 rfl _).trans (A_eq1 (V3 m ρ) c 2))).symm.trans
    (W4_main_arg4 m ρ c)
theorem V3_arg11 (c : Dev nD) : V3 m ρ c main_arg11 = a11 m c :=
  ((W4_arr m ρ c 3).trans (((dat1 (V3 m ρ) c).arrAt_in 3 rfl _).trans (A_eq1 (V3 m ρ) c 3))).symm.trans
    (W4_main_arg11 m ρ c)
theorem V3_arg12 (c : Dev nD) : V3 m ρ c main_arg12 = a12 m c :=
  ((W4_arr m ρ c 4).trans (((dat1 (V3 m ρ) c).arrAt_in 4 rfl _).trans (A_eq1 (V3 m ρ) c 4))).symm.trans
    (W4_main_arg12 m ρ c)
theorem V3_arg13 (c : Dev nD) : V3 m ρ c main_arg13 = a13 m c :=
  ((W4_arr m ρ c 5).trans (((dat1 (V3 m ρ) c).arrAt_in 5 rfl _).trans (A_eq1 (V3 m ρ) c 5))).symm.trans
    (W4_main_arg13 m ρ c)
theorem V3_arg14 (c : Dev nD) : V3 m ρ c main_arg14 = a14 m c :=
  ((W4_arr m ρ c 6).trans (((dat1 (V3 m ρ) c).arrAt_in 6 rfl _).trans (A_eq1 (V3 m ρ) c 6))).symm.trans
    (W4_main_arg14 m ρ c)
theorem V3_arg15 (c : Dev nD) : V3 m ρ c main_arg15 = a15 m c :=
  ((W4_arr m ρ c 7).trans (((dat1 (V3 m ρ) c).arrAt_in 7 rfl _).trans (A_eq1 (V3 m ρ) c 7))).symm.trans
    (W4_main_arg15 m ρ c)
theorem V3_arg16 (c : Dev nD) : V3 m ρ c main_arg16 = a16 m c :=
  ((W4_arr m ρ c 8).trans (((dat1 (V3 m ρ) c).arrAt_in 8 rfl _).trans (A_eq1 (V3 m ρ) c 8))).symm.trans
    (W4_main_arg16 m ρ c)
theorem V3_arg17 (c : Dev nD) : V3 m ρ c main_arg17 = a17 m c :=
  ((W4_arr m ρ c 9).trans (((dat1 (V3 m ρ) c).arrAt_in 9 rfl _).trans (A_eq1 (V3 m ρ) c 9))).symm.trans
    (W4_main_arg17 m ρ c)
theorem V3_arg18 (c : Dev nD) : V3 m ρ c main_arg18 = a18 m c :=
  ((W4_arr m ρ c 10).trans (((dat1 (V3 m ρ) c).arrAt_in 10 rfl _).trans (A_eq1 (V3 m ρ) c 10))).symm.trans
    (W4_main_arg18 m ρ c)

/-- The kernel program's result array is the reference's last stage of the launched arguments. -/
theorem result_eq (c : Dev nD) :
    W4 m ρ c (Proc.devRef .tc main_v30) = val_main_v137 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) := by
  have h30 : W4 m ρ c (Proc.devRef .tc main_v30) = (dat1 (F := Ideal) (V3 m ρ) c).arrAt 11 cfg1.N := W4_arr m ρ c 11
  rw [h30, NodeArr.final, Cert.RefValue.out_eq]
  unfold NodeArr.G
  rw [V3_v29, V3_arg1, V3_arg4, V3_arg11, V3_arg12, V3_arg13, V3_arg14, V3_arg15, V3_arg16, V3_arg17, V3_arg18]

end Cert.Bridge

end
-- ==== Proof.lean ====
/-
  The five claims of this certificate.

  Both idealised programs compute, on the extended reals, one layer of a graph network on 40000 nodes and 640000
  edges.  Every edge's message is a two-layer perceptron of the source node's gathered features and of the difference
  of the two endpoints' poses, with a group norm between the layers; the messages are summed into their target nodes;
  every node's new features are three normalised layers of the sum of a linear image of its old features and its
  aggregate, closed by a residual connection.  The kernel program computes the messages and the nodes' updates in two
  pipelined regions over blocks of 6400 edges and of 4000 nodes, with the gathers and the scatter between them on the
  host; the reference computes everything on whole arrays.  Entry by entry the two are the same sums, products and
  maxima: a change of float format is the identity, the blocks tile the arrays, and the one regrouping — the product
  with the 256×128 weight of the concatenated (features, pose features) row as the sum of the products with its two
  128×128 halves — holds in every commutative monoid, so no finiteness of the inputs is used.  The result both runs are
  stated at is the reference's last stage, as a function of the argument arrays.
  The idealisation rewrote nothing, so it preserves the kernel trivially; the three frames are the programs' runs.
-/
import proofs.«157215_j79577154060436_2_alg».proof.Defs
import proofs.«157215_j79577154060436_2_alg».proof.Proof.Gen.Kernel
import proofs.«157215_j79577154060436_2_alg».proof.Proof.Gen.Kernel.Skeleton
import proofs.«157215_j79577154060436_2_alg».proof.Proof.Gen.Kernel.Launch
import proofs.«157215_j79577154060436_2_alg».proof.Proof.Gen.Kernel.Points
import proofs.«157215_j79577154060436_2_alg».proof.Proof.Gen.Kernel.Frame
import proofs.«157215_j79577154060436_2_alg».proof.Proof.Gen.KernelIdeal
import proofs.«157215_j79577154060436_2_alg».proof.Proof.Gen.KernelIdeal.Skeleton
import proofs.«157215_j79577154060436_2_alg».proof.Proof.Gen.KernelIdeal.Launch
import proofs.«157215_j79577154060436_2_alg».proof.Proof.Gen.KernelIdeal.Points
import proofs.«157215_j79577154060436_2_alg».proof.Proof.Gen.KernelIdeal.Frame
import proofs.«157215_j79577154060436_2_alg».proof.Proof.Gen.ReferenceIdeal
import proofs.«157215_j79577154060436_2_alg».proof.Proof.Gen.Pre_finite_inputs
import proofs.«157215_j79577154060436_2_alg».proof.Proof.KernelRun
import proofs.«157215_j79577154060436_2_alg».proof.Proof.RefRun
import proofs.«157215_j79577154060436_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealised kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both idealised programs end with the reference's last stage of the (agreeing) argument arrays in their result. -/
theorem algebraic : Cert.algebraic_KernelIdeal_ReferenceIdeal := by
  intro m ρ m' ρ' _ hagree
  refine ⟨fun c => Cert.ReferenceIdeal.ReadP.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    (θ_run Cert.KernelIdeal.defs _ _).mono (fun r h c => ⟨(h c).1.trans (Cert.Bridge.result_eq m ρ c), (h c).2⟩)
      (Cert.KernelIdeal.Run.run_result (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18, h19, h20⟩ := hagree c
  unfold Cert.ReferenceIdeal.ValueP.res_main_v137
  rw [h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
